-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S100000x1 : Shape := ⟨2, ![100000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S4000x512 : Shape := ⟨2, ![4000, 512]⟩
abbrev S4000x16 : Shape := ⟨2, ![4000, 16]⟩
abbrev S10000x16 : Shape := ⟨2, ![10000, 16]⟩
abbrev S10000x7 : Shape := ⟨2, ![10000, 7]⟩

abbrev nBuf : Space → Nat
  | .hbm => 88
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S100000x1, .f32⟩
  | .hbm, ⟨29, _⟩ => ⟨S100000x16, .f32⟩
  | .hbm, ⟨30, _⟩ => ⟨S100000x16, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x16, .f32⟩
  | .hbm, ⟨40, _⟩ => ⟨S_, .f32⟩
  | .hbm, ⟨41, _⟩ => ⟨S100000x16, .f32⟩
  | .hbm, ⟨42, _⟩ => ⟨S3300000x1, .i32⟩
  | .hbm, ⟨43, _⟩ => ⟨S100000x16, .f32⟩
  | .hbm, ⟨44, _⟩ => ⟨S100000x1, .f32⟩
  | .hbm, ⟨45, _⟩ => ⟨S100000x16, .f32⟩
  | .hbm, ⟨46, _⟩ => ⟨S100000x16, .f32⟩
  | .hbm, ⟨47, _⟩ => ⟨S1x16, .f32⟩
  | .hbm, ⟨48, _⟩ => ⟨S100000x16, .f32⟩
  | .hbm, ⟨49, _⟩ => ⟨S100000x16, .f32⟩
  | .hbm, ⟨50, _⟩ => ⟨S100000x7, .f32⟩
  | .hbm, ⟨51, _⟩ => ⟨S100000x1, .f32⟩
  | .hbm, ⟨52, _⟩ => ⟨S100000x7, .f32⟩
  | .hbm, ⟨53, _⟩ => ⟨S100000x7, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x7, .f32⟩
  | .hbm, ⟨63, _⟩ => ⟨S_, .f32⟩
  | .hbm, ⟨64, _⟩ => ⟨S100000x7, .f32⟩
  | .hbm, ⟨65, _⟩ => ⟨S3300000x1, .i32⟩
  | .hbm, ⟨66, _⟩ => ⟨S100000x7, .f32⟩
  | .hbm, ⟨67, _⟩ => ⟨S100000x1, .f32⟩
  | .hbm, ⟨68, _⟩ => ⟨S100000x7, .f32⟩
  | .hbm, ⟨69, _⟩ => ⟨S100000x7, .f32⟩
  | .hbm, ⟨70, _⟩ => ⟨S1x7, .f32⟩
  | .hbm, ⟨71, _⟩ => ⟨S100000x7, .f32⟩
  | .hbm, ⟨72, _⟩ => ⟨S100000x7, .f32⟩
  | .hbm, ⟨73, _⟩ => ⟨S_, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x7, .f32⟩
  | .hbm, ⟨80, _⟩ => ⟨S100000x7, .f32⟩
  | .hbm, ⟨81, _⟩ => ⟨S100000x7, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S100000x1, .f32⟩
  | .hbm, ⟨86, _⟩ => ⟨S100000x7, .f32⟩
  | .hbm, ⟨87, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S10000x16, .f32⟩
  | .local _ .vmem, ⟨6, _⟩ => ⟨S10000x16, .f32⟩
  | .local _ .vmem, ⟨7, _⟩ => ⟨S16x7, .f32⟩
  | .local _ .vmem, ⟨8, _⟩ => ⟨S10000x7, .f32⟩
  | .local _ .vmem, ⟨9, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_c : Ref sig .tc := ⟨.hbm, 31, rfl⟩
abbrev main_call0_v19 : Ref sig .tc := ⟨.hbm, 32, rfl⟩
abbrev main_call0_v20 : Ref sig .tc := ⟨.hbm, 33, rfl⟩
abbrev main_call0_c_3 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_cst_4 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_v37 : Ref sig .tc := ⟨.hbm, 52, rfl⟩
abbrev main_call0_v38 : Ref sig .tc := ⟨.hbm, 53, rfl⟩
abbrev main_call0_c_5 : Ref sig .tc := ⟨.hbm, 54, rfl⟩
abbrev main_call0_v39 : Ref sig .tc := ⟨.hbm, 55, rfl⟩
abbrev main_call0_v40 : Ref sig .tc := ⟨.hbm, 56, rfl⟩
abbrev main_call0_c_6 : Ref sig .tc := ⟨.hbm, 57, rfl⟩
abbrev main_call0_v41 : Ref sig .tc := ⟨.hbm, 58, rfl⟩
abbrev main_call0_v42 : Ref sig .tc := ⟨.hbm, 59, rfl⟩
abbrev main_call0_v43 : Ref sig .tc := ⟨.hbm, 60, rfl⟩
abbrev main_call0_v44 : Ref sig .tc := ⟨.hbm, 61, rfl⟩
abbrev main_call0_v45 : Ref sig .tc := ⟨.hbm, 62, rfl⟩
abbrev main_call0_cst_7 : Ref sig .tc := ⟨.hbm, 63, rfl⟩
abbrev main_call0_v46 : Ref sig .tc := ⟨.hbm, 64, rfl⟩
abbrev main_call0_v47 : Ref sig .tc := ⟨.hbm, 65, rfl⟩
abbrev main_call0_v48 : Ref sig .tc := ⟨.hbm, 66, rfl⟩
abbrev main_call0_v49 : Ref sig .tc := ⟨.hbm, 67, rfl⟩
abbrev main_call0_v50 : Ref sig .tc := ⟨.hbm, 68, rfl⟩
abbrev main_call0_v51 : Ref sig .tc := ⟨.hbm, 69, rfl⟩
abbrev main_call0_v52 : Ref sig .tc := ⟨.hbm, 70, rfl⟩
abbrev main_call0_v53 : Ref sig .tc := ⟨.hbm, 71, rfl⟩
abbrev main_call0_v54 : Ref sig .tc := ⟨.hbm, 72, rfl⟩
abbrev main_call0_call1_cst : Ref sig .tc := ⟨.hbm, 73, rfl⟩
abbrev main_call0_call1_v0 : Ref sig .tc := ⟨.hbm, 74, rfl⟩
abbrev main_call0_call1_cst_0 : Ref sig .tc := ⟨.hbm, 75, rfl⟩
abbrev main_call0_call1_v1 : Ref sig .tc := ⟨.hbm, 76, rfl⟩
abbrev main_call0_call1_v2 : Ref sig .tc := ⟨.hbm, 77, rfl⟩
abbrev main_call0_call1_v3 : Ref sig .tc := ⟨.hbm, 78, rfl⟩
abbrev main_call0_call1_v4 : Ref sig .tc := ⟨.hbm, 79, rfl⟩
abbrev main_call0_call1_v5 : Ref sig .tc := ⟨.hbm, 80, rfl⟩
abbrev main_call0_call1_v6 : Ref sig .tc := ⟨.hbm, 81, rfl⟩
abbrev main_call0_call1_cst_1 : Ref sig .tc := ⟨.hbm, 82, rfl⟩
abbrev main_call0_call1_v7 : Ref sig .tc := ⟨.hbm, 83, rfl⟩
abbrev main_call0_call1_v8 : Ref sig .tc := ⟨.hbm, 84, rfl⟩
abbrev main_call0_call1_v9 : Ref sig .tc := ⟨.hbm, 85, rfl⟩
abbrev main_call0_call1_v10 : Ref sig .tc := ⟨.hbm, 86, rfl⟩
abbrev main_v0 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000x1_S100000x7_0_1 : S100000x1.BroadcastsInDim S100000x7 (![0, 1] : Fin 2 → Fin S100000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  scatter_S100000_S3300000x1_S3300000_n_0_0_1_wf : ScatterDims.WF S100000 S3300000x1 S3300000 [] [0] [0] 1
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  dot_S4000x512_S512x16_S4000x16_1_0_0_1_n_n_wf : DotDims.WF S4000x512 S512x16 S4000x16 [1] [0] [0] [1] [] []
  dot_S10000x16_S16x7_S10000x7_1_0_0_1_n_n_wf : DotDims.WF S10000x16 S16x7 S10000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x7.size a ≤ S100000x7.size a
  hwx1_2 : ∀ i : grid1.Coords, EltTy.bits .f32 = 32 ∨ (Rect.block (s := S100000x7) S10000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v34) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v35) S10000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x7, .f32⟩
  | 112 => ⟨S3300000x1, .f32⟩
  | 113 => ⟨S3300000x7, .f32⟩
  | 114 => ⟨S3300000x7, .f32⟩
  | 115 => ⟨S_, .f32⟩
  | 116 => ⟨S100000x7, .f32⟩
  | 117 => ⟨S3300000x1, .i32⟩
  | 118 => ⟨S100000x7, .f32⟩
  | 119 => ⟨S1x7, .f32⟩
  | 120 => ⟨S100000x7, .f32⟩
  | 121 => ⟨S100000x7, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x7, .f32⟩
  | 1 => ⟨S100000x7, .f32⟩
  | 2 => ⟨S100000x7, .f32⟩
  | 3 => ⟨S_, .f32⟩
  | 4 => ⟨S100000, .f32⟩
  | 5 => ⟨S100000x1, .f32⟩
  | 6 => ⟨S100000x1, .f32⟩
  | 7 => ⟨S100000x7, .f32⟩
  | 8 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result named. Every weakly fair execution of the program from a memory with
  zero counters terminates without a fault; at the end the result array holds what the last stretch of host
  operations leaves in it — the fold of the three host stretches and the two kernel regions from the launch
  memory, read at the result's buffer — and every argument array is as launched. The segments, the thread states
  between them and the proof data of the two regions are the ones of the frame run; only the final reading is
  wider: it reads the result's buffer as well as the arguments'.
-/
import proofs.«167192_j2946347565080_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents read at its buffer, the arguments as launched. -/
theorem run_named : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.KernelRun

end
-- ==== Proof.LibRowGather.lean ====
/-
  A row gather read at an index. For an operand of N rows and C columns and one start index per result row
  (start indices of shape [E, 1]), the gather that collapses the row axis and keeps whole rows (what x[idx] lowers
  to for a two-dimensional x) reads, at result entry (e, q), the operand's entry (r, q), where r is the start index
  of row e read as a signed integer and clamped into [0, N - 1]. Any extents, any element type, any index width.
-/
import Idealize.ShloMosaic.PureOps.ShapeOps
import Idealize.ShloMosaic.Lib.ValueIdx

noncomputable section

namespace Cert.Bridge.RowGather

open Idealize.ShloMosaic Idealize.ShloMosaic.ValueIdx

variable {α : Type}

/-- The dimension numbers of a row gather: operand [N, C], start indices [E, 1], result [E, C]; the row axis is
    collapsed and addressed by the one component of the start index, the column axis is kept whole. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index addresses: the index read signed, clamped into [0, N - 1]. -/
def rowOf {N w : Nat} (hN : 0 < N) (v : BitVec w) : Fin N := ⟨min v.toInt.toNat (N - 1), by omega⟩

/-- The gather at (e, q) is the operand at (the clamped start index of row e, q). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf hN (idx (ix2 e (0 : Fin 1)))) q) := by
  have hne : ¬ ((1 : Fin 2) = 0) := by decide
  -- the row coordinate: the clamped start; no batching coordinate, no offset on a collapsed axis
  have h0 : ((rowDims N C E wf).operandIdx (ix2 e q) idx 0).val = min (idx (ix2 e (0 : Fin 1))).toInt.toNat (N - 1) := by
    show (rowDims N C E wf).start (ix2 e q) idx 0 + (rowDims N C E wf).batchCoord (ix2 e q) 0
        + (rowDims N C E wf).offCoord (ix2 e q) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start (the axis is not addressed), no batching, the result's own column as offset
  have h1 : ((rowDims N C E wf).operandIdx (ix2 e q) idx 1).val = q.val := by
    show (rowDims N C E wf).start (ix2 e q) idx 1 + (rowDims N C E wf).batchCoord (ix2 e q) 1
        + (rowDims N C E wf).offCoord (ix2 e q) 1 = _
    rw [GatherDims.batchCoord_eq_zero _ _ _ List.not_mem_nil]
    unfold GatherDims.start
    rw [dif_neg (show (1 : Fin 2) ∉ (rowDims N C E wf).startIndexMap from
      fun h => hne (List.mem_singleton.mp h))]
    unfold GatherDims.offCoord
    rw [dif_pos (show (1 : Fin 2) ∈ (rowDims N C E wf).sKept from
      (GatherDims.mem_sKept _ _).mpr ⟨fun h => hne (List.mem_singleton.mp h), List.not_mem_nil⟩)]
    simp only [Nat.zero_add, Nat.add_zero]
    rfl
  unfold Host.gather
  congr 1
  funext a
  refine Fin.ext ?_
  match a with
  | ⟨0, _⟩ => exact h0
  | ⟨1, _⟩ => exact h1

end Cert.Bridge.RowGather

end
-- ==== Proof.LibSegmentSum.lean ====
/-
  Sums by segment. At the extended reals the accumulating scatter is an exact sum: every operand entry plus the sum
  of the update entries landing on it. This file reads a ROW scatter (operand of N rows and C columns, one scatter
  index per update row, update row e added to the operand row its index names) at an entry as the sum, over the
  update rows whose index is that row, of their entries in that column; shows that summing projected rows by
  segment is projecting the rows summed by segment (the entries summed being non-negative, the projection's
  weights arbitrary extended reals); and shows that dividing by the larger of a count of ones and 1 is multiplying
  by a non-negative real. Any extents, any index width.
-/
import Idealize.ShloMosaic.PureOps.Ideal
import Idealize.ShloMosaic.PureOps.Ideal.Laws
import Idealize.ShloMosaic.PureOps.ShapeOps
import Idealize.ShloMosaic.Lib.ValueIdx
import proofs.«167192_j2946347565080_2_alg».proof.Proof.LibRowGather

noncomputable section

namespace Cert.Lib.SegmentSum

open Idealize.ShloMosaic Idealize.ShloMosaic.ValueIdx
open scoped BigOperators

/-- An update index lands on operand index i exactly when, on every operand axis, its start plus its window
    coordinate is i's coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro heq a
      have h' := Option.some.inj heq
      rw [← h']
      exact (Int.toNat_of_nonneg (h a).1).symm
    · intro hall
      congr 1
      funext a
      refine Fin.ext ?_
      show (d.start j idx a + (d.window j a : Int)).toNat = (i a).val
      rw [hall a]
      exact Int.toNat_natCast _
  · constructor
    · intro heq; cases heq
    · intro hall
      exfalso
      apply h
      intro a
      rw [hall a]
      exact ⟨Int.natCast_nonneg _, Int.ofNat_lt.mpr (i a).isLt⟩

/-- The dimension numbers of a row scatter: operand [N, C], scatter indices [E, 1], updates [E, C]; update row e is
    added to the operand row its one index component names, column by column. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows

variable {N C E w : Nat} (wf : ScatterDims.WF ⟨2, ![N, C]⟩ ⟨2, ![E, 1]⟩ ⟨2, ![E, C]⟩ [1] [0] [0] 1)

/-- On the row axis the window of update (e, q') starts at the scatter index of update row e, read signed. -/
theorem start_row (idx : IVec ⟨2, ![E, 1]⟩ w) (e : Fin E) (q' : Fin C) :
    (rowDims N C E wf).start (ix2 e q') idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e q') ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, every window starts at 0. -/
theorem start_col (idx : IVec ⟨2, ![E, 1]⟩ w) (j : (⟨2, ![E, C]⟩ : Shape).Idx) :
    (rowDims N C E wf).start j idx 1 = 0 := by
  unfold ScatterDims.start
  rw [dif_neg (show (1 : Fin 2) ∉ (rowDims N C E wf).scatterDimsToOperandDims from
    fun h => (show ¬ ((1 : Fin 2) = 0) by decide) (List.mem_singleton.mp h))]

/-- The row axis is an inserted axis: the window coordinate there is 0. -/
theorem window_row (j : (⟨2, ![E, C]⟩ : Shape).Idx) : (rowDims N C E wf).window j 0 = 0 := by
  unfold ScatterDims.window
  rw [dif_neg (show (0 : Fin 2) ∉ (rowDims N C E wf).sKept from
    fun h => of_decide_eq_true (List.mem_filter.mp h).2 (List.mem_singleton.mpr rfl))]

/-- On the column axis the window coordinate of update (e, q') is q'. -/
theorem window_col (e : Fin E) (q' : Fin C) : (rowDims N C E wf).window (ix2 e q') 1 = q'.val := by
  unfold ScatterDims.window
  rw [dif_pos (show (1 : Fin 2) ∈ (rowDims N C E wf).sKept from
    List.mem_filter.mpr ⟨List.mem_finRange _, decide_eq_true (fun h => (show ¬ ((1 : Fin 2) = 0) by decide) (List.mem_singleton.mp h))⟩)]
  rfl

/-- Update (e, q') lands on operand entry (n, q) exactly when the scatter index of update row e is n and q' = q. -/
theorem lands_iff (idx : IVec ⟨2, ![E, 1]⟩ w) (e : Fin E) (q' : Fin C) (n : Fin N) (q : Fin C) :
    (rowDims N C E wf).resultIdx? (ix2 e q') idx = some (ix2 n q)
      ↔ ((idx (ix2 e (0 : Fin 1))).toInt = (n.val : Int) ∧ q' = q) := by
  refine (resultIdx?_eq_some_iff _ _ _ _).trans (Fin.forall_fin_two.trans ?_)
  show ((rowDims N C E wf).start (ix2 e q') idx 0 + ((rowDims N C E wf).window (ix2 e q') 0 : Int) = (n.val : Int)
      ∧ (rowDims N C E wf).start (ix2 e q') idx 1 + ((rowDims N C E wf).window (ix2 e q') 1 : Int) = (q.val : Int)) ↔ _
  rw [start_row, start_col, window_row, window_col]
  constructor
  · rintro ⟨h0, h1⟩
    exact ⟨by simpa using h0, Fin.ext (by simpa using h1)⟩
  · rintro ⟨h0, rfl⟩
    exact ⟨by simpa using h0, by simp⟩

/-- The row scatter at (n, q): the operand's entry plus the sum, over the update rows whose scatter index (read
    signed) is n, of their entries in column q. Update rows whose index names no row of the operand contribute
    nowhere. -/
theorem scatterAdd_rows_apply (x : (⟨2, ![N, C]⟩ : Shape).Idx → EReal) (idx : IVec ⟨2, ![E, 1]⟩ w)
    (u : (⟨2, ![E, C]⟩ : Shape).Idx → EReal) (n : Fin N) (q : Fin C) :
    Host.scatterAdd (F := Ideal) (φ := .f32) (rowDims N C E wf) x idx u (ix2 n q)
      = x (ix2 n q) + ∑ e ∈ Finset.univ.filter (fun e : Fin E => (idx (ix2 e (0 : Fin 1))).toInt = (n.val : Int)),
          u (ix2 e q) := by
  show x (ix2 n q) + ∑ j ∈ Finset.univ.filter (fun j => (rowDims N C E wf).resultIdx? j idx = some (ix2 n q)), u j = _
  congr 1
  rw [Finset.sum_filter, sum_idx2, Finset.sum_filter]
  refine Finset.sum_congr rfl (fun e _ => ?_)
  simp only [lands_iff]
  by_cases hc : (idx (ix2 e (0 : Fin 1))).toInt = (n.val : Int)
  · simp [hc]
  · simp [hc]

end Rows

/-- A sum of non-negative extended reals times any extended real is the sum of the products: multiplication
    distributes from the right over sums of non-negative terms, whatever the factor. -/
theorem sum_mul_of_nonneg {ι : Type*} (s : Finset ι) (a : ι → EReal) (ha : ∀ i ∈ s, 0 ≤ a i) (c : EReal) :
    (∑ i ∈ s, a i) * c = ∑ i ∈ s, a i * c := by
  classical
  induction s using Finset.induction_on with
  | empty => simp
  | insert i s hi ih =>
    rw [Finset.sum_insert hi, Finset.sum_insert hi,
      EReal.right_distrib_of_nonneg (ha i (Finset.mem_insert_self i s))
        (Finset.sum_nonneg fun j hj => ha j (Finset.mem_insert_of_mem hj)),
      ih (fun j hj => ha j (Finset.mem_insert_of_mem hj))]

/-- Summing projected rows by segment is projecting the rows summed by segment. With H non-negative, P = H · W
    entrywise as sums over the inner axis (W any extended reals), rows gathered at src and scattered into zeros at
    dst: at node n and column q both sides are the sum over the edges e with dst e = n and over the inner index k of
    H[row(src e), k] · W[k, q]; the two finite sums are exchanged and W[k, q] is taken out of the sum over the
    edges, whose terms are non-negative. -/
theorem segment_project {N K Q E w : Nat} (hN : 0 < N)
    (wfK : ScatterDims.WF ⟨2, ![N, K]⟩ ⟨2, ![E, 1]⟩ ⟨2, ![E, K]⟩ [1] [0] [0] 1)
    (wfQ : ScatterDims.WF ⟨2, ![N, Q]⟩ ⟨2, ![E, 1]⟩ ⟨2, ![E, Q]⟩ [1] [0] [0] 1)
    (wgK : GatherDims.WF ⟨2, ![N, K]⟩ ⟨2, ![E, 1]⟩ ⟨2, ![E, K]⟩ [1] [0] [] [0] [] 1 ![1, K])
    (wgQ : GatherDims.WF ⟨2, ![N, Q]⟩ ⟨2, ![E, 1]⟩ ⟨2, ![E, Q]⟩ [1] [0] [] [0] [] 1 ![1, Q])
    (H : (⟨2, ![N, K]⟩ : Shape).Idx → EReal) (hH : ∀ i, 0 ≤ H i) (W : (⟨2, ![K, Q]⟩ : Shape).Idx → EReal)
    (P : (⟨2, ![N, Q]⟩ : Shape).Idx → EReal)
    (hP : ∀ (m : Fin N) (q : Fin Q), P (ix2 m q) = ∑ k : Fin K, H (ix2 m k) * W (ix2 k q))
    (ZK : (⟨2, ![N, K]⟩ : Shape).Idx → EReal) (hZK : ∀ i, ZK i = 0)
    (ZQ : (⟨2, ![N, Q]⟩ : Shape).Idx → EReal) (hZQ : ∀ i, ZQ i = 0)
    (src dst : IVec ⟨2, ![E, 1]⟩ w) (n : Fin N) (q : Fin Q) :
    Host.scatterAdd (F := Ideal) (φ := .f32) (rowDims N Q E wfQ) ZQ dst
        (Host.gather (Cert.Bridge.RowGather.rowDims N Q E wgQ) P src) (ix2 n q)
      = ∑ k : Fin K, Host.scatterAdd (F := Ideal) (φ := .f32) (rowDims N K E wfK) ZK dst
          (Host.gather (Cert.Bridge.RowGather.rowDims N K E wgK) H src) (ix2 n k) * W (ix2 k q) := by
  rw [scatterAdd_rows_apply wfQ, hZQ, zero_add]
  refine (Finset.sum_congr rfl (fun e _ =>
    (Cert.Bridge.RowGather.gather_rows_apply hN wgQ P src e q).trans (hP _ _))).trans ?_
  rw [Finset.sum_comm]
  refine Finset.sum_congr rfl (fun k _ => ?_)
  have hk : Host.scatterAdd (F := Ideal) (φ := .f32) (rowDims N K E wfK) ZK dst
        (Host.gather (Cert.Bridge.RowGather.rowDims N K E wgK) H src) (ix2 n k)
      = ∑ e ∈ Finset.univ.filter (fun e : Fin E => (dst (ix2 e (0 : Fin 1))).toInt = (n.val : Int)),
          H (ix2 (Cert.Bridge.RowGather.rowOf hN (src (ix2 e (0 : Fin 1)))) k) := by
    rw [scatterAdd_rows_apply wfK, hZK, zero_add]
    exact Finset.sum_congr rfl (fun e _ => Cert.Bridge.RowGather.gather_rows_apply hN wgK H src e k)
  rw [hk, sum_mul_of_nonneg _ _ (fun e _ => hH _)]

/-- A sum of ones over a finite set is a natural number, so a scatter of ones into zeros holds a count at every
    index; the larger of a count and 1 is a real at least 1, and dividing by it is multiplying by its reciprocal,
    a non-negative real. -/
theorem degree_reciprocal {s si u : Shape} {w : Nat} (d : ScatterDims s si u) (Z : s.Idx → EReal) (hZ : ∀ i, Z i = 0)
    (idx : IVec si w) (O : u.Idx → EReal) (hO : ∀ j, O j = 1) (i : s.Idx) :
    ∃ c : ℝ, 0 ≤ c ∧ Ideal.div 1 (max (Host.scatterAdd (F := Ideal) (φ := .f32) d Z idx O i) 1) = (c : EReal)
      ∧ ∀ a : EReal, Ideal.div a (max (Host.scatterAdd (F := Ideal) (φ := .f32) d Z idx O i) 1) = a * (c : EReal) := by
  have hval : Host.scatterAdd (F := Ideal) (φ := .f32) d Z idx O i
      = (((Finset.univ.filter (fun j => d.resultIdx? j idx = some i)).card : ℝ) : EReal) := by
    show Z i + ∑ j ∈ Finset.univ.filter (fun j => d.resultIdx? j idx = some i), O j = _
    rw [hZ i, zero_add, Finset.sum_congr rfl (fun j _ => hO j)]
    simp
  rw [hval]
  set t : ℝ := ((Finset.univ.filter (fun j => d.resultIdx? j idx = some i)).card : ℝ) with ht
  have hmax : max (t : EReal) 1 = ((max t 1 : ℝ) : EReal) := by
    exact (EReal.coe_strictMono.monotone.map_max (a := t) (b := 1)).symm
  rw [hmax]
  have hpos : (0 : ℝ) < max t 1 := lt_of_lt_of_le one_pos (le_max_right _ _)
  refine ⟨1 / max t 1, by positivity, ?_, ?_⟩
  · rw [Ideal.div_coe hpos.ne', one_mul]
  · intro a
    exact Ideal.div_coe hpos.ne' a

end Cert.Lib.SegmentSum

end
-- ==== Proof.LibScaleSum.lean ====
/-
  A non-negative finite factor moves across a finite sum on the extended reals.

  Multiplication on the extended reals does not distribute over addition in general (⊤ + ⊥ = ⊥ breaks it for factors of
  mixed sign), but for a factor `c` with `0 ≤ c` and `c ≠ ⊤` it does, at every pair of summands, infinite ones
  included. Hence `(∑ f) * c = ∑ (f * c)` over any finite index set, and a bilinear sum whose left factors are each
  scaled by `c` is the unscaled sum times `c`: `∑ (a i * c) * b i = (∑ a i * b i) * c`. No summand need be finite.

  The f32 word `0x3E800000` denotes the real 1/4, which is such a factor.
-/
import Idealize.ShloMosaic.PureOps.Ideal

noncomputable section

namespace Cert.LibScaleSum

open Idealize.ShloMosaic

/-- A finite sum times a non-negative finite factor is the sum of the scaled terms, on all extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Scaling every left factor of a bilinear sum by such a `c` scales the sum: `∑ (a i * c) * b i = (∑ a i * b i) * c`. -/
theorem sum_scaled_mul {ι : Type*} (s : Finset ι) (a b : ι → EReal) {c : EReal} (h0 : 0 ≤ c) (ht : c ≠ ⊤) :
    ∑ i ∈ s, (a i * c) * b i = (∑ i ∈ s, a i * b i) * c := by
  rw [sum_mul_of_nonneg_of_ne_top s _ h0 ht]
  exact Finset.sum_congr rfl fun i _ => mul_right_comm _ _ _

/-- The f32 word `0x3E800000` denotes the real 1/4. -/
theorem ofBits_quarter : Ideal.ofBits .f32 0x3E800000#32 = ((1 / 4 : ℝ) : EReal) := by
  simp [Ideal.ofBits, Ideal.ieee, -EReal.coe_mul]; norm_num

theorem quarter_nonneg : (0 : EReal) ≤ Ideal.ofBits .f32 0x3E800000#32 := by
  rw [ofBits_quarter]; exact_mod_cast (by norm_num : (0 : ℝ) ≤ 1 / 4)

theorem quarter_ne_top : Ideal.ofBits .f32 0x3E800000#32 ≠ ⊤ := by
  rw [ofBits_quarter]; exact EReal.coe_ne_top _

end Cert.LibScaleSum

end
-- ==== Proof.LibAggregate.lean ====
/-
  Aggregating messages along the edges of a graph, on the extended reals.

  A layer of a graph convolution sums, for every node n, the messages carried by the edges that end in n. With a
  per-node factor d (non-negative and not +infinity) the sum can be normalised in two ways: scale the rows of the
  feature array by d before they are gathered along the edges and scale the sum by d n afterwards, or scale every
  single message by d (source) * d (destination). This file shows the two agree at every entry, infinite features
  included, because a non-negative finite factor moves across a finite sum of extended reals. It also reads a
  gather from a one-dimensional array at an index (the entry at the clamped start index), shows that an index whose
  signed reading is a row number is left alone by the wrap "add the extent if negative" and by the clamp, and shows
  that the factor "reciprocal square root of the degree if the degree is positive, else zero" is non-negative and
  never +infinity. Any extents, any index width.
-/
import Idealize.ShloMosaic.PureOps.Ideal
import Idealize.ShloMosaic.PureOps.Ideal.Laws
import Idealize.ShloMosaic.PureOps.ShapeOps
import Idealize.ShloMosaic.Lib.ValueIdx
import proofs.«167192_j2946347565080_2_alg».proof.Proof.LibRowGather
import proofs.«167192_j2946347565080_2_alg».proof.Proof.LibSegmentSum
import proofs.«167192_j2946347565080_2_alg».proof.Proof.LibScaleSum

noncomputable section

namespace Cert.Lib.Aggregate

open Idealize.ShloMosaic Idealize.ShloMosaic.ValueIdx
open scoped BigOperators

/-- Scaling before the gather and after the segment sum is scaling every message. With hs the rows of h scaled by
    the per-node factor d, gathered at src and summed by segment at dst, the entry at node n times d n is the sum,
    over the edges ending in n, of the messages h[row(src e), q] * (d (row(src e)) * d n): the factor d n, being
    non-negative and finite, is taken into the sum, and the products are re-associated. -/
theorem scaled_segment_sum {N C E w : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (d : Fin N → EReal) (hd0 : ∀ n, 0 ≤ d n) (hdt : ∀ n, d n ≠ ⊤)
    (h hs : (⟨2, ![N, C]⟩ : Shape).Idx → EReal) (hhs : ∀ n q, hs (ix2 n q) = h (ix2 n q) * d n)
    (Z : (⟨2, ![N, C]⟩ : Shape).Idx → EReal) (hZ : ∀ i, Z i = 0)
    (src dst : IVec ⟨2, ![E, 1]⟩ w)
    (msg : (⟨2, ![E, C]⟩ : Shape).Idx → EReal) (n : Fin N) (q : Fin C)
    (hmsg : ∀ e : Fin E, (dst (ix2 e (0 : Fin 1))).toInt = (n.val : Int) →
      msg (ix2 e q) = h (ix2 (Cert.Bridge.RowGather.rowOf hN (src (ix2 e (0 : Fin 1)))) q)
        * (d (Cert.Bridge.RowGather.rowOf hN (src (ix2 e (0 : Fin 1)))) * d n)) :
    d n * Host.scatterAdd (F := Ideal) (φ := .f32) (Cert.Lib.SegmentSum.rowDims N C E wfS) Z dst
            (Host.gather (Cert.Bridge.RowGather.rowDims N C E wfG) hs src) (ix2 n q)
      = Host.scatterAdd (F := Ideal) (φ := .f32) (Cert.Lib.SegmentSum.rowDims N C E wfS) Z dst msg (ix2 n q) := by
  rw [Cert.Lib.SegmentSum.scatterAdd_rows_apply wfS, Cert.Lib.SegmentSum.scatterAdd_rows_apply wfS, hZ, zero_add,
    zero_add, mul_comm (d n), Cert.LibScaleSum.sum_mul_of_nonneg_of_ne_top _ _ (hd0 n) (hdt n)]
  refine Finset.sum_congr rfl (fun e he => ?_)
  rw [Cert.Bridge.RowGather.gather_rows_apply hN wfG hs src e q, hhs, hmsg e (Finset.mem_filter.mp he).2, mul_assoc]

/-- A 32-bit index whose signed reading is a row number n < N is not negative, so the wrap "add k if negative"
    leaves it as it is, and clamping its signed reading into [0, N - 1] gives n. -/
theorem rowOf_wrap_of_toInt_eq {N : Nat} (hN : 0 < N) (v k : BitVec 32) (n : Fin N) (hv : v.toInt = (n.val : Int)) :
    Cert.Bridge.RowGather.rowOf hN (Scalar.select (IntOp.cmpi .slt v 0#32) (IntOp.addi v k) v) = n := by
  have hslt : v.slt 0#32 = false := by
    rw [BitVec.slt_eq_decide, hv]
    simp
  have hsel : Scalar.select (IntOp.cmpi .slt v 0#32) (IntOp.addi v k) v = v := by
    unfold Scalar.select IntOp.cmpi
    simp only [hslt]
    rfl
  rw [hsel]
  refine Fin.ext ?_
  show min v.toInt.toNat (N - 1) = n.val
  rw [hv, Int.toNat_natCast]
  have := n.isLt
  omega

/-- The reciprocal square root of a positive extended real is non-negative and is not +infinity: at +infinity it is
    0, at a positive real r it is the real 1 / sqrt r. -/
theorem rsqrt_nonneg_ne_top_of_pos (x : EReal) (hx : 0 < x) : 0 ≤ Ideal.rsqrt x ∧ Ideal.rsqrt x ≠ ⊤ := by
  induction x using EReal.rec with
  | bot => exact absurd hx (not_lt_bot)
  | coe r =>
    have hr : (0 : ℝ) < r := by exact_mod_cast hx
    rw [Ideal.rsqrt_coe, if_neg (not_lt.mpr hr.le), if_neg hr.ne']
    exact ⟨EReal.coe_nonneg.mpr (inv_nonneg.mpr (Real.sqrt_nonneg r)), EReal.coe_ne_top _⟩
  | top =>
    rw [Ideal.rsqrt_top]
    exact ⟨le_refl _, EReal.zero_ne_top⟩

/-- The selection "the reciprocal square root of x if x is above zero, else zero", read at the extended reals. -/
theorem select_rsqrt_eq (x z : EReal) (hz : z = 0) :
    Scalar.select (FloatOps.cmpf (F := Ideal) (φ := .f32) .ogt x z) (FloatOps.hostUnary (F := Ideal) (φ := .f32) .rsqrt x) z
      = if 0 < x then Ideal.rsqrt x else 0 := by
  subst hz
  rw [Ideal.cmpf_def, Ideal.hostUnary_rsqrt_def]
  unfold Scalar.select Ideal.cmp
  by_cases hx : (0 : EReal) < x
  · rw [if_pos hx, if_pos (by simp [hx])]
  · rw [if_neg hx, if_neg (by simp [hx])]

/-- The per-node factor of a normalised layer: whatever the degree x is, "the reciprocal square root of x if x is
    above zero, else zero" is non-negative. -/
theorem select_rsqrt_nonneg (x z : EReal) (hz : z = 0) :
    0 ≤ Scalar.select (FloatOps.cmpf (F := Ideal) (φ := .f32) .ogt x z) (FloatOps.hostUnary (F := Ideal) (φ := .f32) .rsqrt x) z := by
  rw [select_rsqrt_eq x z hz]
  by_cases hx : (0 : EReal) < x
  · rw [if_pos hx]; exact (rsqrt_nonneg_ne_top_of_pos x hx).1
  · rw [if_neg hx]

/-- ... and it is never +infinity: the reciprocal square root is +infinity only at zero, where the selection takes
    the other branch. -/
theorem select_rsqrt_ne_top (x z : EReal) (hz : z = 0) :
    Scalar.select (FloatOps.cmpf (F := Ideal) (φ := .f32) .ogt x z) (FloatOps.hostUnary (F := Ideal) (φ := .f32) .rsqrt x) z ≠ ⊤ := by
  rw [select_rsqrt_eq x z hz]
  by_cases hx : (0 : EReal) < x
  · rw [if_pos hx]; exact (rsqrt_nonneg_ne_top_of_pos x hx).2
  · rw [if_neg hx]; exact EReal.zero_ne_top

/-- A vector gather: operand [N], start indices [E, 1], result [E]; the one operand axis is collapsed and addressed
    by the one component of the start index (what x[idx] lowers to for a one-dimensional x). -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at e is the operand at the start index of e, read signed and clamped into [0, N - 1]. Any
    element type, any index width. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (Cert.Bridge.RowGather.rowOf hN (idx (ix2 e (0 : Fin 1))))) := by
  -- the one coordinate: the clamped start; no batching coordinate, no offset on a collapsed axis
  have h0 : ((vecDims N E wf).operandIdx (ix1 e) idx 0).val = min (idx (ix2 e (0 : Fin 1))).toInt.toNat (N - 1) := by
    show (vecDims N E wf).start (ix1 e) idx 0 + (vecDims N E wf).batchCoord (ix1 e) 0
        + (vecDims N E wf).offCoord (ix1 e) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  refine congrArg x ?_
  funext a
  refine Fin.ext ?_
  match a with
  | ⟨0, _⟩ => exact h0

end Cert.Lib.Aggregate

end
-- ==== Proof.Forms.lean ====
/-
  The vocabulary both programs are read in: pure functions of arrays over the shapes of this network (100000 nodes,
  3300000 edges counting one self loop per node, 512 features, 16 hidden units, 7 classes).
  The edge list's two rows, each followed by the self loops, are the edges' sources and targets. A node's degree is
  the number of edges that target it; its factor is the reciprocal square root of the degree where the degree is
  positive and zero elsewhere. A layer takes a node-by-column array h and returns, at node n and column q, the sum
  over the edges e with target n of h[source e, q] times factor(source e) times factor(n), plus a bias. It is written
  twice: scaled at the nodes (h scaled by the factor, gathered, summed by target, scaled again) and scaled at the
  edges (each gathered row scaled by the product of the two factors, then summed by target). The network is a
  product with the first weights, a layer, the positive part, a product with the second weights, a layer, and the
  logarithm of the softmax along the classes.
-/
import Idealize.ShloMosaic.PureOps.Ideal
import Idealize.ShloMosaic.PureOps.ShapeOps
import Idealize.ShloMosaic.PureOps.Contract
import proofs.«167192_j2946347565080_2_alg».proof.Proof.LibRowGather
import proofs.«167192_j2946347565080_2_alg».proof.Proof.LibSegmentSum
import proofs.«167192_j2946347565080_2_alg».proof.Proof.LibAggregate

noncomputable section

namespace Cert.Forms

open Idealize.ShloMosaic

variable {F : FTy → Type} [FloatOps F]

abbrev S_ : Shape := ⟨0, ![]⟩
abbrev Sn : Shape := ⟨1, ![100000]⟩
abbrev Sn1 : Shape := ⟨2, ![100000, 1]⟩
abbrev Se : Shape := ⟨1, ![3300000]⟩
abbrev Se1 : Shape := ⟨2, ![3300000, 1]⟩
abbrev Sv (C : Nat) : Shape := ⟨1, ![C]⟩
abbrev S1c (C : Nat) : Shape := ⟨2, ![1, C]⟩
abbrev Snc (C : Nat) : Shape := ⟨2, ![100000, C]⟩
abbrev Sec (C : Nat) : Shape := ⟨2, ![3300000, C]⟩
abbrev Sei : Shape := ⟨2, ![2, 3200000]⟩
abbrev Sr : Shape := ⟨2, ![1, 3200000]⟩
abbrev Sm : Shape := ⟨1, ![3200000]⟩

theorem ends_join : Shape.Concatenates [Sm, Sn] Se 0 := by decide
theorem classes_reduce : (Snc 7).ReducesTo [1] Sn := by decide
theorem scalar_pos : 0 < S_.numel := by decide

/-- Row r of the edge list followed by one self loop per node. -/
def ends (r : Fin 2) (hs : Sei.Slices ![r.val, 0] Sr) (ei : IVec Sei 32) : IVec Se 32 :=
  concatenate Se 0 [⟨Sm, shapeCast Sm (extractStridedSlice Sr ![r.val, 0] ei hs) (by decide)⟩, ⟨Sn, iotaInDim Sn 32 0⟩] ends_join

/-- The edges' sources and targets. -/
def srcs (ei : IVec Sei 32) : IVec Se 32 := ends 0 (by decide) ei
def dsts (ei : IVec Sei 32) : IVec Se 32 := ends 1 (by decide) ei

/-- An index vector as one column. -/
def col (v : IVec Se 32) : IVec Se1 32 := broadcastInDim Se1 ![0] (by decide) v

/-- A negative index counted from the end: v + 100000 where v is negative, v elsewhere. -/
def wrap (v : IVec Se 32) : IVec Se 32 :=
  select (cmpi .slt v (broadcastInDim Se ![] (by decide) (constantI S_ 32 0#32)))
    (addi v (broadcastInDim Se ![] (by decide) (constantI S_ 32 100000#32))) v

/-- The degree scatter's and the factor gather's dimension numbers. -/
abbrev scV : ScatterDims Sn Se1 Se where
  updateWindowDims := []
  insertedWindowDims := [0]
  scatterDimsToOperandDims := [0]
  indexVectorDim := 1
abbrev gaV : GatherDims Sn Se1 Se := Cert.Lib.Aggregate.vecDims 100000 3300000 (by decide)

/-- A node's degree: ones summed by target. -/
def degree (dst : IVec Se 32) : FVec F Sn .f32 :=
  Host.scatterAdd scV (broadcastInDim Sn ![] (by decide) (constant S_ .f32 0x00000000#32)) (col dst)
    (broadcastInDim Se ![] (by decide) (constant S_ .f32 0x3F800000#32))

/-- A node's factor: the reciprocal square root of its degree where that is positive, zero elsewhere. -/
def factor (dst : IVec Se 32) : FVec F Sn .f32 :=
  select (cmpf (F := F) .ogt (degree dst) (broadcastInDim Sn ![] (by decide) (constant S_ .f32 0x00000000#32))) (Host.rsqrt (degree (F := F) dst))
    (broadcastInDim Sn ![] (by decide) (id (constant S_ .f32 0x00000000#32)))

/-- The row scatter's and row gather's dimension numbers at 16 columns. -/
abbrev sc16 : ScatterDims (Snc 16) Se1 (Sec 16) := Cert.Lib.SegmentSum.rowDims 100000 16 3300000 (by decide)
abbrev ga16 : GatherDims (Snc 16) Se1 (Sec 16) := Cert.Bridge.RowGather.rowDims 100000 16 3300000 (by decide)

/-- The per-node factor spread over 16 columns. -/
def spread16 (d : FVec F Sn .f32) : FVec F (Snc 16) .f32 :=
  broadcastInDim (Snc 16) ![0, 1] (by decide) (broadcastInDim Sn1 ![0] (by decide) d)

/-- A bias row spread over the nodes. -/
def bias16 (b : FVec F (Sv 16) .f32) : FVec F (Snc 16) .f32 :=
  broadcastInDim (Snc 16) ![0, 1] (by decide) (broadcastInDim (S1c 16) ![1] (by decide) b)

/-- A layer, scaled at the nodes: the rows scaled by the factor, gathered at the sources, summed by target, scaled
    again, plus the bias. -/
def layerNodes16 (h : FVec F (Snc 16) .f32) (d : FVec F Sn .f32) (src dst : IVec Se 32) (b : FVec F (Sv 16) .f32) :
    FVec F (Snc 16) .f32 :=
  addf (mulf (spread16 d)
      (Host.scatterAdd sc16 (broadcastInDim (Snc 16) ![] (by decide) (constant S_ .f32 0x00000000#32)) (col dst)
        (Host.gather ga16 (mulf h (spread16 d)) (col (wrap src)))))
    (bias16 b)

/-- The per-edge weight spread over 16 columns. -/
def spreadE16 (w : FVec F Se .f32) : FVec F (Sec 16) .f32 :=
  broadcastInDim (Sec 16) ![0, 1] (by decide) (broadcastInDim Se1 ![0] (by decide) w)

/-- The same layer, scaled at the edges: the rows gathered at the sources, each message scaled by the product of the
    factors at its two ends, summed by target, plus the bias. -/
def layerEdges16 (h : FVec F (Snc 16) .f32) (d : FVec F Sn .f32) (src dst : IVec Se 32) (b : FVec F (Sv 16) .f32) :
    FVec F (Snc 16) .f32 :=
  addf (Host.scatterAdd sc16 (broadcastInDim (Snc 16) ![] (by decide) (constant S_ .f32 0x00000000#32)) (col dst)
      (mulf (Host.gather ga16 h (col (wrap src)))
        (spreadE16 (mulf (Host.gather gaV d (col (wrap src))) (Host.gather gaV d (col (wrap dst)))))))
    (bias16 b)

/-- The row scatter's and row gather's dimension numbers at 7 columns. -/
abbrev sc7 : ScatterDims (Snc 7) Se1 (Sec 7) := Cert.Lib.SegmentSum.rowDims 100000 7 3300000 (by decide)
abbrev ga7 : GatherDims (Snc 7) Se1 (Sec 7) := Cert.Bridge.RowGather.rowDims 100000 7 3300000 (by decide)

/-- The per-node factor spread over 7 columns. -/
def spread7 (d : FVec F Sn .f32) : FVec F (Snc 7) .f32 :=
  broadcastInDim (Snc 7) ![0, 1] (by decide) (broadcastInDim Sn1 ![0] (by decide) d)

/-- A bias row spread over the nodes. -/
def bias7 (b : FVec F (Sv 7) .f32) : FVec F (Snc 7) .f32 :=
  broadcastInDim (Snc 7) ![0, 1] (by decide) (broadcastInDim (S1c 7) ![1] (by decide) b)

/-- A layer, scaled at the nodes: the rows scaled by the factor, gathered at the sources, summed by target, scaled
    again, plus the bias. -/
def layerNodes7 (h : FVec F (Snc 7) .f32) (d : FVec F Sn .f32) (src dst : IVec Se 32) (b : FVec F (Sv 7) .f32) :
    FVec F (Snc 7) .f32 :=
  addf (mulf (spread7 d)
      (Host.scatterAdd sc7 (broadcastInDim (Snc 7) ![] (by decide) (constant S_ .f32 0x00000000#32)) (col dst)
        (Host.gather ga7 (mulf h (spread7 d)) (col (wrap src)))))
    (bias7 b)

/-- The per-edge weight spread over 7 columns. -/
def spreadE7 (w : FVec F Se .f32) : FVec F (Sec 7) .f32 :=
  broadcastInDim (Sec 7) ![0, 1] (by decide) (broadcastInDim Se1 ![0] (by decide) w)

/-- The same layer, scaled at the edges: the rows gathered at the sources, each message scaled by the product of the
    factors at its two ends, summed by target, plus the bias. -/
def layerEdges7 (h : FVec F (Snc 7) .f32) (d : FVec F Sn .f32) (src dst : IVec Se 32) (b : FVec F (Sv 7) .f32) :
    FVec F (Snc 7) .f32 :=
  addf (Host.scatterAdd sc7 (broadcastInDim (Snc 7) ![] (by decide) (constant S_ .f32 0x00000000#32)) (col dst)
      (mulf (Host.gather ga7 h (col (wrap src)))
        (spreadE7 (mulf (Host.gather gaV d (col (wrap src))) (Host.gather gaV d (col (wrap dst)))))))
    (bias7 b)

/-- The two products. -/
def dot1 (x : FVec F ⟨2, ![100000, 512]⟩ .f32) (w : FVec F ⟨2, ![512, 16]⟩ .f32) : FVec F (Snc 16) .f32 :=
  Host.dotGeneral (DotDims.plain 100000 512 16) none x w
def dot2 (x : FVec F (Snc 16) .f32) (w : FVec F ⟨2, ![16, 7]⟩ .f32) : FVec F (Snc 7) .f32 :=
  Host.dotGeneral (DotDims.plain 100000 16 7) none x w

/-- The positive part. -/
def relu (x : FVec F (Snc 16) .f32) : FVec F (Snc 16) .f32 :=
  maximumf x (broadcastInDim (Snc 16) ![] (by decide) (constant S_ .f32 0x00000000#32))

/-- The logarithm of the softmax along the classes: x minus its row maximum, minus the logarithm of the row sum of
    the exponentials of that. -/
def logSoftmax (x : FVec F (Snc 7) .f32) : FVec F (Snc 7) .f32 :=
  let mx : FVec F Sn .f32 := maximumf (broadcastInDim Sn ![] (by decide) (constant S_ .f32 0xFF800000#32))
    (Host.reduce FloatOps.maximumf x (constant S_ .f32 0xFF800000#32) classes_reduce scalar_pos)
  let sh : FVec F (Snc 7) .f32 := subf x (broadcastInDim (Snc 7) ![0, 1] (by decide) (broadcastInDim Sn1 ![0] (by decide) mx))
  subf sh (broadcastInDim (Snc 7) ![0, 1] (by decide) (Host.log (broadcastInDim Sn1 ![0] (by decide)
    (Host.reduceAdd (Host.exp sh) (constant S_ .f32 0x00000000#32) classes_reduce scalar_pos))))

/-- The network with its layers scaled at the nodes, the two products handed in as functions. -/
def netNodes (x : FVec F ⟨2, ![100000, 512]⟩ .f32) (ei : IVec Sei 32) (w1 : FVec F ⟨2, ![512, 16]⟩ .f32) (b1 : FVec F (Sv 16) .f32)
    (w2 : FVec F ⟨2, ![16, 7]⟩ .f32) (b2 : FVec F (Sv 7) .f32) : FVec F (Snc 7) .f32 :=
  logSoftmax (layerNodes7 (dot2 (relu (layerNodes16 (dot1 x w1) (factor (dsts ei)) (srcs ei) (dsts ei) b1)) w2)
    (factor (dsts ei)) (srcs ei) (dsts ei) b2)

/-- The network with its layers scaled at the edges. -/
def netEdges (x : FVec F ⟨2, ![100000, 512]⟩ .f32) (ei : IVec Sei 32) (w1 : FVec F ⟨2, ![512, 16]⟩ .f32) (b1 : FVec F (Sv 16) .f32)
    (w2 : FVec F ⟨2, ![16, 7]⟩ .f32) (b2 : FVec F (Sv 7) .f32) : FVec F (Snc 7) .f32 :=
  logSoftmax (layerEdges7 (dot2 (relu (layerEdges16 (dot1 x w1) (factor (dsts ei)) (srcs ei) (dsts ei) b1)) w2)
    (factor (dsts ei)) (srcs ei) (dsts ei) b2)

end Cert.Forms

end
-- ==== Proof.KernelHost.lean ====
/-
  The idealized kernel's host operations, read as functions. Between the launch and the first kernel region the
  program prepares the edges' sources and targets and the per-node factor; between the two regions it applies a
  layer, scaled at the nodes, to the first region's result; after the second region it applies the second layer and
  the logarithm of the softmax. Each stretch is read at the buffers the later stretches use, as a function of the
  buffers it reads from the boundary before it; a buffer a stretch or a region does not write keeps its contents.
-/
import proofs.«167192_j2946347565080_2_alg».proof.Proof.Gen.KernelIdeal.Frame
import proofs.«167192_j2946347565080_2_alg».proof.Proof.Forms
import Idealize.ShloMosaic.Lib.StableHlo.Run

set_option maxRecDepth 16384

noncomputable section

namespace Cert.KernelIdeal.KHost

open Cert.KernelIdeal Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- Writing a value into a typed buffer and reading it back is the value. -/
theorem ofBuf_toBuf {T : BufTy} (x : StableHlo.TRef sig T) (v : T.Contents (Elt F)) : x.ofBuf (x.toBuf v) = v := by
  simp only [TRef.ofBuf, TRef.toBuf, cast_cast, cast_eq]

/-! ## Before the first region -/

/-- The edges' sources. -/
theorem W1_src : Gen.W1 m ρ c (Proc.devRef .tc main_call0_v3) = Cert.Forms.srcs (m ((c : Thread nD τ).loc main_arg1)) := by
  show StableHlo.after Gen.hostOps0 (Gen.W0 m ρ c) (Proc.devRef .tc main_call0_v3) = _
  simp only [Gen.hostOps0]
  after_results_simp
  try simp only [ofBuf_toBuf]
  rfl

/-- The edges' targets. -/
theorem W1_dst : Gen.W1 m ρ c (Proc.devRef .tc main_call0_v6) = Cert.Forms.dsts (m ((c : Thread nD τ).loc main_arg1)) := by
  show StableHlo.after Gen.hostOps0 (Gen.W0 m ρ c) (Proc.devRef .tc main_call0_v6) = _
  simp only [Gen.hostOps0]
  after_results_simp
  try simp only [ofBuf_toBuf]
  rfl

/-- The per-node factor. -/
theorem W1_factor : Gen.W1 m ρ c (Proc.devRef .tc main_call0_v14)
    = Cert.Forms.factor (Cert.Forms.dsts (m ((c : Thread nD τ).loc main_arg1))) := by
  show StableHlo.after Gen.hostOps0 (Gen.W0 m ρ c) (Proc.devRef .tc main_call0_v14) = _
  simp only [Gen.hostOps0]
  after_results_simp
  try simp only [ofBuf_toBuf]
  rfl

/-! ## Between the regions: the first layer, scaled at the nodes -/

/-- The stretch as a function of the contents it starts from, whatever they are. -/
theorem stretch1 (V : Valuation τ sig (Elt F)) : StableHlo.after Gen.hostOps1 V (Proc.devRef .tc main_call0_v34)
    = Cert.Forms.layerNodes16 (V (Proc.devRef .tc main_call0_v15)) (V (Proc.devRef .tc main_call0_v14))
        (V (Proc.devRef .tc main_call0_v3)) (V (Proc.devRef .tc main_call0_v6))
        (V (Proc.devRef .tc main_arg3)) := by
  simp only [Gen.hostOps1]
  after_results_simp
  try simp only [ofBuf_toBuf]
  rfl

theorem W3_layer : Gen.W3 m ρ c (Proc.devRef .tc main_call0_v34)
    = Cert.Forms.layerNodes16 (Gen.W2 m ρ c (Proc.devRef .tc main_call0_v15)) (Gen.W2 m ρ c (Proc.devRef .tc main_call0_v14))
        (Gen.W2 m ρ c (Proc.devRef .tc main_call0_v3)) (Gen.W2 m ρ c (Proc.devRef .tc main_call0_v6))
        (Gen.W2 m ρ c (Proc.devRef .tc main_arg3)) :=
  stretch1 (Gen.W2 m ρ c)

/-! ## After the second region: the second layer and the logarithm of the softmax -/

/-- A fold of host operations is the fold of its first n operations followed by the fold of the rest. -/
theorem after_split {Val : EltTy → Type} (n : Nat) : ∀ (l : List (HloOp τ sig Val)) (V : Valuation τ sig Val),
    StableHlo.after l V = StableHlo.after (l.drop n) (StableHlo.after (l.take n) V) := by
  induction n with
  | zero => intro l V; rfl
  | succ n ih =>
    intro l V
    cases l with
    | nil => rfl
    | cons op ops =>
      simp only [List.take_succ_cons, List.drop_succ_cons, StableHlo.after_cons]
      exact ih ops _

set_option maxHeartbeats 2000000 in
/-- The second layer, scaled at the nodes: the stretch's first 22 operations. -/
theorem stretch2_layer (V : Valuation τ sig (Elt F)) :
    StableHlo.after ((Gen.hostOps2 (F := F)).take 22) V (Proc.devRef .tc main_call0_v54)
    = Cert.Forms.layerNodes7 (V (Proc.devRef .tc main_call0_v35)) (V (Proc.devRef .tc main_call0_v14))
        (V (Proc.devRef .tc main_call0_v3)) (V (Proc.devRef .tc main_call0_v6))
        (V (Proc.devRef .tc main_arg5)) := by
  simp only [Gen.hostOps2, List.take_succ_cons, List.take_zero]
  after_results_simp
  try simp only [ofBuf_toBuf]
  rfl

set_option maxHeartbeats 2000000 in
/-- The logarithm of the softmax: the stretch's last 15 operations. -/
theorem stretch2_tail (V : Valuation τ sig (Elt F)) :
    StableHlo.after ((Gen.hostOps2 (F := F)).drop 22) V (Proc.devRef .tc main_v0)
    = Cert.Forms.logSoftmax (V (Proc.devRef .tc main_call0_v54)) := by
  simp only [Gen.hostOps2, List.drop_succ_cons, List.drop_zero]
  after_results_simp
  try simp only [ofBuf_toBuf]
  rfl

/-- The stretch as a function of the contents it starts from, whatever they are. -/
theorem stretch2 (V : Valuation τ sig (Elt F)) : StableHlo.after Gen.hostOps2 V (Proc.devRef .tc main_v0)
    = Cert.Forms.logSoftmax (Cert.Forms.layerNodes7 (V (Proc.devRef .tc main_call0_v35)) (V (Proc.devRef .tc main_call0_v14))
        (V (Proc.devRef .tc main_call0_v3)) (V (Proc.devRef .tc main_call0_v6))
        (V (Proc.devRef .tc main_arg5))) := by
  rw [after_split 22, stretch2_tail, stretch2_layer]

theorem W5_result : Gen.W5 m ρ c (Proc.devRef .tc main_v0)
    = Cert.Forms.logSoftmax (Cert.Forms.layerNodes7 (Gen.W4 m ρ c (Proc.devRef .tc main_call0_v35)) (Gen.W4 m ρ c (Proc.devRef .tc main_call0_v14))
        (Gen.W4 m ρ c (Proc.devRef .tc main_call0_v3)) (Gen.W4 m ρ c (Proc.devRef .tc main_call0_v6))
        (Gen.W4 m ρ c (Proc.devRef .tc main_arg5))) :=
  stretch2 (Gen.W4 m ρ c)

/-! ## What each stretch and each region leaves alone -/

theorem W1_arg0 : Gen.W1 m ρ c (Proc.devRef .tc main_arg0) = Gen.W0 m ρ c (Proc.devRef .tc main_arg0) :=
  StableHlo.after_of_forall_not_mem (b := Proc.devRef .tc main_arg0) _ _ (List.forall_iff_forall_mem.mp (by
    simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W1_arg2 : Gen.W1 m ρ c (Proc.devRef .tc main_arg2) = Gen.W0 m ρ c (Proc.devRef .tc main_arg2) :=
  StableHlo.after_of_forall_not_mem (b := Proc.devRef .tc main_arg2) _ _ (List.forall_iff_forall_mem.mp (by
    simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W1_arg3 : Gen.W1 m ρ c (Proc.devRef .tc main_arg3) = Gen.W0 m ρ c (Proc.devRef .tc main_arg3) :=
  StableHlo.after_of_forall_not_mem (b := Proc.devRef .tc main_arg3) _ _ (List.forall_iff_forall_mem.mp (by
    simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W1_arg4 : Gen.W1 m ρ c (Proc.devRef .tc main_arg4) = Gen.W0 m ρ c (Proc.devRef .tc main_arg4) :=
  StableHlo.after_of_forall_not_mem (b := Proc.devRef .tc main_arg4) _ _ (List.forall_iff_forall_mem.mp (by
    simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W1_arg5 : Gen.W1 m ρ c (Proc.devRef .tc main_arg5) = Gen.W0 m ρ c (Proc.devRef .tc main_arg5) :=
  StableHlo.after_of_forall_not_mem (b := Proc.devRef .tc main_arg5) _ _ (List.forall_iff_forall_mem.mp (by
    simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W2_v14 : Gen.W2 m ρ c (Proc.devRef .tc main_call0_v14) = Gen.W1 m ρ c (Proc.devRef .tc main_call0_v14) :=
  Gen.W2_of_ne m ρ c main_call0_v14 (by decide)

theorem W2_v3 : Gen.W2 m ρ c (Proc.devRef .tc main_call0_v3) = Gen.W1 m ρ c (Proc.devRef .tc main_call0_v3) :=
  Gen.W2_of_ne m ρ c main_call0_v3 (by decide)

theorem W2_v6 : Gen.W2 m ρ c (Proc.devRef .tc main_call0_v6) = Gen.W1 m ρ c (Proc.devRef .tc main_call0_v6) :=
  Gen.W2_of_ne m ρ c main_call0_v6 (by decide)

theorem W2_arg3 : Gen.W2 m ρ c (Proc.devRef .tc main_arg3) = Gen.W1 m ρ c (Proc.devRef .tc main_arg3) :=
  Gen.W2_of_ne m ρ c main_arg3 (by decide)

theorem W2_arg4 : Gen.W2 m ρ c (Proc.devRef .tc main_arg4) = Gen.W1 m ρ c (Proc.devRef .tc main_arg4) :=
  Gen.W2_of_ne m ρ c main_arg4 (by decide)

theorem W2_arg5 : Gen.W2 m ρ c (Proc.devRef .tc main_arg5) = Gen.W1 m ρ c (Proc.devRef .tc main_arg5) :=
  Gen.W2_of_ne m ρ c main_arg5 (by decide)

theorem W3_v14 : Gen.W3 m ρ c (Proc.devRef .tc main_call0_v14) = Gen.W2 m ρ c (Proc.devRef .tc main_call0_v14) :=
  StableHlo.after_of_forall_not_mem (b := Proc.devRef .tc main_call0_v14) _ _ (List.forall_iff_forall_mem.mp (by
    simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W3_v3 : Gen.W3 m ρ c (Proc.devRef .tc main_call0_v3) = Gen.W2 m ρ c (Proc.devRef .tc main_call0_v3) :=
  StableHlo.after_of_forall_not_mem (b := Proc.devRef .tc main_call0_v3) _ _ (List.forall_iff_forall_mem.mp (by
    simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W3_v6 : Gen.W3 m ρ c (Proc.devRef .tc main_call0_v6) = Gen.W2 m ρ c (Proc.devRef .tc main_call0_v6) :=
  StableHlo.after_of_forall_not_mem (b := Proc.devRef .tc main_call0_v6) _ _ (List.forall_iff_forall_mem.mp (by
    simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W3_arg4 : Gen.W3 m ρ c (Proc.devRef .tc main_arg4) = Gen.W2 m ρ c (Proc.devRef .tc main_arg4) :=
  StableHlo.after_of_forall_not_mem (b := Proc.devRef .tc main_arg4) _ _ (List.forall_iff_forall_mem.mp (by
    simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W3_arg5 : Gen.W3 m ρ c (Proc.devRef .tc main_arg5) = Gen.W2 m ρ c (Proc.devRef .tc main_arg5) :=
  StableHlo.after_of_forall_not_mem (b := Proc.devRef .tc main_arg5) _ _ (List.forall_iff_forall_mem.mp (by
    simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W4_v14 : Gen.W4 m ρ c (Proc.devRef .tc main_call0_v14) = Gen.W3 m ρ c (Proc.devRef .tc main_call0_v14) :=
  Gen.W4_of_ne m ρ c main_call0_v14 (by decide)

theorem W4_v3 : Gen.W4 m ρ c (Proc.devRef .tc main_call0_v3) = Gen.W3 m ρ c (Proc.devRef .tc main_call0_v3) :=
  Gen.W4_of_ne m ρ c main_call0_v3 (by decide)

theorem W4_v6 : Gen.W4 m ρ c (Proc.devRef .tc main_call0_v6) = Gen.W3 m ρ c (Proc.devRef .tc main_call0_v6) :=
  Gen.W4_of_ne m ρ c main_call0_v6 (by decide)

theorem W4_arg5 : Gen.W4 m ρ c (Proc.devRef .tc main_arg5) = Gen.W3 m ρ c (Proc.devRef .tc main_arg5) :=
  Gen.W4_of_ne m ρ c main_arg5 (by decide)

end Cert.KernelIdeal.KHost

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.RegionMatmul.lean ====
/-
  The two kernel regions' results as whole-array matrix products, at the extended reals.

  Each region walks a grid of row blocks. At a grid point the body multiplies one block of rows of the left operand by
  the whole right operand and stores the product as the same block of rows of the result; the second region first
  clamps the left operand below at zero. Entry (r, q) of a block product is the sum over k of L[r, k] * R[k, q], and row r
  of a block is row (block index * rows per block + r) of the array, so every point writes back its rows of ONE
  function of the region's arrays: the product of the whole left operand (clamped, in the second region) with the right
  operand. The blocks tile the rows (row r lies in block r / rows per block), so the result array ends holding that product.
-/
import proofs.«167192_j2946347565080_2_alg».proof.Proof.Gen.KernelIdeal.Frame
import proofs.«167192_j2946347565080_2_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionMatmul

open Cert.KernelIdeal Cert.KernelIdeal.Gen Idealize.ShloMosaic Idealize.ShloMosaic.TcCoe Idealize.SL.Sem
open Idealize.ShloMosaic.Pipeline (Dat)
open Idealize.ShloMosaic.ValueIdx
open Cert.Bridge.LibMatmul

/-- The zero offsets of a whole-block access. -/
theorem zeros2 : (![0, 0] : Fin 2 → Nat) = fun _ => 0 := funext fun a => by fin_cases a <;> rfl

/-! ## The first region: 25 blocks of 4000 rows, each times the 512×16 right operand -/

/-- The product of the whole 100000×512 array with the 512×16 array. -/
abbrev prod0 (X : FVec Ideal S100000x512 .f32) (W : FVec Ideal S512x16 .f32) : FVec Ideal S100000x16 .f32 :=
  Host.dotGeneral (F := Ideal) (DotDims.plain 100000 512 16) none X W

/-- Entry (r, q) of the whole product. -/
theorem prod0_apply (X : FVec Ideal S100000x512 .f32) (W : FVec Ideal S512x16 .f32) (r : Fin 100000) (q : Fin 16) :
    prod0 X W (ix2 r q) = ∑ k : Fin 512, X (ix2 r k) * W (ix2 k q) :=
  dotGeneral_apply (M := 100000) (K := 512) (N := 16) none .single X W r q

/-- Entry (p, q) of the body's block product: the change of float format is the identity at the extended reals, and
    the accumulator is zero. -/
theorem pay0_apply (x0 : Vec Ideal S4000x512 .f32) (x1 : Vec Ideal S512x16 .f32) (p : Fin 4000) (q : Fin 16) :
    k0_pay1 x0 x1 (ix2 p q) = ∑ k : Fin 512, x0 (ix2 p k) * x1 (ix2 k q) := by
  unfold k0_pay1
  exact matmul_zero_apply (M := 4000) (K := 512) (N := 16) none
    (truncf .bf16 x0 bitsLt_bf16_f32) (truncf .bf16 x1 bitsLt_bf16_f32) p q

/-- A block product is the block's rows of the whole product: block `T` holds rows `4000 T … 4000 T + 3999` of the left
    operand, and the right operand is whole. -/
theorem block0 (X : FVec Ideal S100000x512 .f32) (W : FVec Ideal S512x16 .f32)
    (x0 : Vec Ideal S4000x512 .f32) (x1 : Vec Ideal S512x16 .f32) (T : Nat) (y : S4000x16.Idx) (i : S100000x16.Idx)
    (hi0 : (i 0).val = T * 4000 + (y 0).val) (hi1 : (i 1).val = (y 1).val)
    (h0 : ∀ (a : S4000x512.Idx) (b : S100000x512.Idx), (b 0).val = T * 4000 + (a 0).val → (b 1).val = (a 1).val → x0 a = X b)
    (h1 : ∀ a : S512x16.Idx, x1 a = W a) :
    k0_pay1 x0 x1 y = prod0 X W i := by
  obtain ⟨p, q, rfl⟩ : ∃ (p : Fin 4000) (q : Fin 16), y = ix2 p q := ⟨y 0, y 1, eq_ix2 y⟩
  obtain ⟨r, s, rfl⟩ : ∃ (r : Fin 100000) (s : Fin 16), i = ix2 r s := ⟨i 0, i 1, eq_ix2 i⟩
  obtain rfl : s = q := Fin.ext hi1
  rw [pay0_apply, prod0_apply]
  refine Finset.sum_congr rfl fun k _ => ?_
  rw [h0 (ix2 p k) (ix2 r k) hi0 rfl, h1]

/-- The windows' index maps over the grid: the row-block windows sit at block (t, 0), the right operand's at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Element `a` of the left operand's block at point `t` is the array's element `b` in row `4000 * (block index) + a₀`,
    same column. -/
theorem iblk0_0_apply (c : Dev nD) (t : Fin cfg0.N) (a : S4000x512.Idx) (b : S100000x512.Idx)
    (hb0 : (b 0).val = win0_0.index t 0 * 4000 + (a 0).val) (hb1 : (b 1).val = win0_0.index t 1 * 512 + (a 1).val) :
    (iblk0 V c 0 t : Vec Ideal S4000x512 .f32) a = (V c main_arg0 : FVec Ideal S100000x512 .f32) b := by
  unfold iblk0
  rw [View.read_apply]
  show V c main_arg0 _ = V c main_arg0 _
  refine congrArg _ ?_
  funext ax
  apply Fin.ext
  match ax with
  | ⟨0, _⟩ => show win0_0.index t 0 * 4000 + 1 * (a 0).val = (b 0).val; omega
  | ⟨1, _⟩ => show win0_0.index t 1 * 512 + 1 * (a 1).val = (b 1).val; omega

/-- The right operand's block at every point is the whole array. -/
theorem iblk0_1_apply (c : Dev nD) (t : Fin cfg0.N) (a : S512x16.Idx) (b : S512x16.Idx)
    (hb0 : (b 0).val = win0_1.index t 0 * 512 + (a 0).val) (hb1 : (b 1).val = win0_1.index t 1 * 16 + (a 1).val) :
    (iblk0 V c 1 t : Vec Ideal S512x16 .f32) a = (V c main_arg2 : FVec Ideal S512x16 .f32) b := by
  unfold iblk0
  rw [View.read_apply]
  show V c main_arg2 _ = V c main_arg2 _
  refine congrArg _ ?_
  funext ax
  apply Fin.ext
  match ax with
  | ⟨0, _⟩ => show win0_1.index t 0 * 512 + 1 * (a 0).val = (b 0).val; omega
  | ⟨1, _⟩ => show win0_1.index t 1 * 16 + 1 * (a 1).val = (b 1).val; omega

/-- What point `t` writes back is its block of rows of the whole product. -/
theorem flushed0_eq (c : Dev nD) (t : Fin cfg0.N) :
    (dat0 (F := Ideal) V c).flushed 2 t
      = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero zeros2]
  simp only [View.ld_unit_zero (S := S4000x512) zeros2, View.ld_unit_zero (S := S512x16) zeros2]
  obtain ⟨e0, e1, e2, e3, e4, e5⟩ := idx_facts0 t
  funext j
  have hj0 : (j 0).val < 4000 := (j 0).isLt
  have hj1 : (j 1).val < 16 := (j 1).isLt
  show k0_pay1 (iblk0 V c 0 t) (iblk0 V c 1 t) ((cfg0.win 2).xinj (grid0.coords t) j)
    = prod0 (V c main_arg0) (V c main_arg2) (((cfg0.win 2).blk t).view.emb j)
  refine block0 (V c main_arg0) (V c main_arg2) (iblk0 V c 0 t) (iblk0 V c 1 t) t.val
    ((cfg0.win 2).xinj (grid0.coords t) j) (((cfg0.win 2).blk t).view.emb j) ?_ ?_ ?_ ?_
  · show win0_2.index t 0 * 4000 + 1 * (j 0).val = t.val * 4000 + (j 0).val; omega
  · show win0_2.index t 1 * 16 + 1 * (j 1).val = (j 1).val; omega
  · intro a b hb0 hb1; exact iblk0_0_apply V c t a b (by omega) (by omega)
  · intro a; exact iblk0_1_apply V c t a a (by omega) (by omega)

/-- An index of the result array is in point `t`'s block iff each coordinate is in the block's range on its axis. -/
theorem mem_blk0 (t : Fin cfg0.N) (i : S100000x16.Idx) :
    i ∈ ((cfg0.win 2).blk t).view.set ↔ ∀ a : Fin 2, win0_2.index t a * S4000x16.size a ≤ (i a).val
      ∧ (i a).val < win0_2.index t a * S4000x16.size a + S4000x16.size a := by
  show i ∈ ((View.whole main_call0_v15).slice (win0_2.rect t)).set ↔ _
  rw [View.set_slice_whole, Rect.mem_set_unit]
  exact Iff.rfl

/-- The blocks tile the rows: row `r` lies in the block of point `r / 4000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t 0 * 4000 ≤ (i 0).val ∧ (i 0).val < win0_2.index t 0 * 4000 + 4000; omega
  | ⟨1, _⟩ => show win0_2.index t 1 * 16 ≤ (i 1).val ∧ (i 1).val < win0_2.index t 1 * 16 + 16; omega

/-- THE FIRST REGION'S RESULT ARRAY after its 25 points: the product of the two arrays the region finds. -/
theorem region0_array (c : Dev nD) :
    (dat0 (F := Ideal) V c).arrAt 2 cfg0.N
      = Host.dotGeneral (F := Ideal) (φ₁ := .f32) (φ₂ := .f32) (DotDims.plain 100000 512 16) none (V c main_arg0) (V c main_arg2) :=
  (dat0 (F := Ideal) V c).arrAt_eq_of_cover 2 (prod0 (V c main_arg0) (V c main_arg2))
    (fun t _ => flushed0_eq V c t) cover0

/-! ## The second region: 10 blocks of 10000 rows, clamped below at zero, each times the 16×7 right operand -/

/-- The product of the whole 100000×16 array, clamped below at zero, with the 16×7 array. -/
abbrev prod1 (X : FVec Ideal S100000x16 .f32) (W : FVec Ideal S16x7 .f32) : FVec Ideal S100000x7 .f32 :=
  Host.dotGeneral (F := Ideal) (DotDims.plain 100000 16 7) none
    (maximumf X (fun _ => FloatOps.ofBits .f32 0x00000000#32)) W

/-- Entry (r, q) of the whole product. -/
theorem prod1_apply (X : FVec Ideal S100000x16 .f32) (W : FVec Ideal S16x7 .f32) (r : Fin 100000) (q : Fin 7) :
    prod1 X W (ix2 r q)
      = ∑ k : Fin 16, max (X (ix2 r k)) (FloatOps.ofBits (F := Ideal) .f32 0x00000000#32) * W (ix2 k q) :=
  dotGeneral_apply (M := 100000) (K := 16) (N := 7) none .single
    (maximumf X (fun _ => FloatOps.ofBits .f32 0x00000000#32)) W r q

/-- Entry (p, q) of the body's block product: the reshape to the same shape and the change of float format are the
    identity, the left block is clamped below at zero entry by entry, and the accumulator is zero. -/
theorem pay1_apply (x0 : Vec Ideal S10000x16 .f32) (x1 : Vec Ideal S16x7 .f32) (p : Fin 10000) (q : Fin 7) :
    k1_pay1 x0 x1 (ix2 p q)
      = ∑ k : Fin 16, max (x0 (ix2 p k)) (FloatOps.ofBits (F := Ideal) .f32 0x00000000#32) * x1 (ix2 k q) := by
  unfold k1_pay1
  refine (matmul_zero_apply (M := 10000) (K := 16) (N := 7) none
    (truncf .bf16 (maximumf (shapeCast S10000x16 x0 shapeCasts_S10000x16_S10000x16)
      (broadcast S10000x16 (Scalar.ofBits .f32 0x00000000#32))) bitsLt_bf16_f32)
    (truncf .bf16 x1 bitsLt_bf16_f32) p q).trans ?_
  refine Finset.sum_congr rfl fun k _ => ?_
  show max (shapeCast S10000x16 x0 shapeCasts_S10000x16_S10000x16 (ix2 p k)) _ * _ = _
  rw [shapeCast_self]
  rfl

/-- A block product is the block's rows of the whole product: block `T` holds rows `10000 T … 10000 T + 9999` of the
    left operand, and the right operand is whole. -/
theorem block1 (X : FVec Ideal S100000x16 .f32) (W : FVec Ideal S16x7 .f32)
    (x0 : Vec Ideal S10000x16 .f32) (x1 : Vec Ideal S16x7 .f32) (T : Nat) (y : S10000x7.Idx) (i : S100000x7.Idx)
    (hi0 : (i 0).val = T * 10000 + (y 0).val) (hi1 : (i 1).val = (y 1).val)
    (h0 : ∀ (a : S10000x16.Idx) (b : S100000x16.Idx), (b 0).val = T * 10000 + (a 0).val → (b 1).val = (a 1).val → x0 a = X b)
    (h1 : ∀ a : S16x7.Idx, x1 a = W a) :
    k1_pay1 x0 x1 y = prod1 X W i := by
  obtain ⟨p, q, rfl⟩ : ∃ (p : Fin 10000) (q : Fin 7), y = ix2 p q := ⟨y 0, y 1, eq_ix2 y⟩
  obtain ⟨r, s, rfl⟩ : ∃ (r : Fin 100000) (s : Fin 7), i = ix2 r s := ⟨i 0, i 1, eq_ix2 i⟩
  obtain rfl : s = q := Fin.ext hi1
  rw [pay1_apply, prod1_apply]
  refine Finset.sum_congr rfl fun k _ => ?_
  rw [h0 (ix2 p k) (ix2 r k) hi0 rfl, h1]

/-- The windows' index maps over the grid: the row-block windows sit at block (t, 0), the right operand's at (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Element `a` of the left operand's block at point `t` is the array's element `b` in row `10000 * (block index) + a₀`,
    same column. -/
theorem iblk1_0_apply (c : Dev nD) (t : Fin cfg1.N) (a : S10000x16.Idx) (b : S100000x16.Idx)
    (hb0 : (b 0).val = win1_0.index t 0 * 10000 + (a 0).val) (hb1 : (b 1).val = win1_0.index t 1 * 16 + (a 1).val) :
    (iblk1 V c 0 t : Vec Ideal S10000x16 .f32) a = (V c main_call0_v34 : FVec Ideal S100000x16 .f32) b := by
  unfold iblk1
  rw [View.read_apply]
  show V c main_call0_v34 _ = V c main_call0_v34 _
  refine congrArg _ ?_
  funext ax
  apply Fin.ext
  match ax with
  | ⟨0, _⟩ => show win1_0.index t 0 * 10000 + 1 * (a 0).val = (b 0).val; omega
  | ⟨1, _⟩ => show win1_0.index t 1 * 16 + 1 * (a 1).val = (b 1).val; omega

/-- The right operand's block at every point is the whole array. -/
theorem iblk1_1_apply (c : Dev nD) (t : Fin cfg1.N) (a : S16x7.Idx) (b : S16x7.Idx)
    (hb0 : (b 0).val = win1_1.index t 0 * 16 + (a 0).val) (hb1 : (b 1).val = win1_1.index t 1 * 7 + (a 1).val) :
    (iblk1 V c 1 t : Vec Ideal S16x7 .f32) a = (V c main_arg4 : FVec Ideal S16x7 .f32) b := by
  unfold iblk1
  rw [View.read_apply]
  show V c main_arg4 _ = V c main_arg4 _
  refine congrArg _ ?_
  funext ax
  apply Fin.ext
  match ax with
  | ⟨0, _⟩ => show win1_1.index t 0 * 16 + 1 * (a 0).val = (b 0).val; omega
  | ⟨1, _⟩ => show win1_1.index t 1 * 7 + 1 * (a 1).val = (b 1).val; omega

/-- What point `t` writes back is its block of rows of the whole product. -/
theorem flushed1_eq (c : Dev nD) (t : Fin cfg1.N) :
    (dat1 (F := Ideal) V c).flushed 2 t
      = ((cfg1.win 2).blk t).view.read (Elt Ideal) (prod1 (V c main_call0_v34) (V c main_arg4)) := by
  show (cfg1.win 2).cut (grid1.coords t) ((dat1 V c).after 2 t) = _
  rw [after1_2]
  unfold out1_2
  rw [View.canon_unit_zero zeros2]
  simp only [View.ld_unit_zero (S := S10000x16) zeros2, View.ld_unit_zero (S := S16x7) zeros2]
  obtain ⟨e0, e1, e2, e3, e4, e5⟩ := idx_facts1 t
  funext j
  have hj0 : (j 0).val < 10000 := (j 0).isLt
  have hj1 : (j 1).val < 7 := (j 1).isLt
  show k1_pay1 (iblk1 V c 0 t) (iblk1 V c 1 t) ((cfg1.win 2).xinj (grid1.coords t) j)
    = prod1 (V c main_call0_v34) (V c main_arg4) (((cfg1.win 2).blk t).view.emb j)
  refine block1 (V c main_call0_v34) (V c main_arg4) (iblk1 V c 0 t) (iblk1 V c 1 t) t.val
    ((cfg1.win 2).xinj (grid1.coords t) j) (((cfg1.win 2).blk t).view.emb j) ?_ ?_ ?_ ?_
  · show win1_2.index t 0 * 10000 + 1 * (j 0).val = t.val * 10000 + (j 0).val; omega
  · show win1_2.index t 1 * 7 + 1 * (j 1).val = (j 1).val; omega
  · intro a b hb0 hb1
    exact iblk1_0_apply V c t a b (by rw [e0]; exact hb0) (by rw [e1, Nat.zero_mul, Nat.zero_add]; exact hb1)
  · intro a
    exact iblk1_1_apply V c t a a (by rw [e2, Nat.zero_mul, Nat.zero_add]) (by rw [e3, Nat.zero_mul, Nat.zero_add])

/-- An index of the result array is in point `t`'s block iff each coordinate is in the block's range on its axis. -/
theorem mem_blk1 (t : Fin cfg1.N) (i : S100000x7.Idx) :
    i ∈ ((cfg1.win 2).blk t).view.set ↔ ∀ a : Fin 2, win1_2.index t a * S10000x7.size a ≤ (i a).val
      ∧ (i a).val < win1_2.index t a * S10000x7.size a + S10000x7.size a := by
  show i ∈ ((View.whole main_call0_v35).slice (win1_2.rect t)).set ↔ _
  rw [View.set_slice_whole, Rect.mem_set_unit]
  exact Iff.rfl

/-- The blocks tile the rows: row `r` lies in the block of point `r / 10000`. -/
theorem cover1 (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := idx_facts1 t
  refine ⟨t, flush1_2 t, ?_⟩
  rw [mem_blk1]
  intro a
  match a with
  | ⟨0, _⟩ => show win1_2.index t 0 * 10000 ≤ (i 0).val ∧ (i 0).val < win1_2.index t 0 * 10000 + 10000; omega
  | ⟨1, _⟩ => show win1_2.index t 1 * 7 ≤ (i 1).val ∧ (i 1).val < win1_2.index t 1 * 7 + 7; omega

/-- THE SECOND REGION'S RESULT ARRAY after its 10 points: the product of the left array it finds, clamped below at zero,
    with the right array. -/
theorem region1_array (c : Dev nD) :
    (dat1 (F := Ideal) V c).arrAt 2 cfg1.N
      = Host.dotGeneral (F := Ideal) (φ₁ := .f32) (φ₂ := .f32) (DotDims.plain 100000 16 7) none
          (maximumf (V c main_call0_v34) (fun _ => FloatOps.ofBits .f32 0x00000000#32)) (V c main_arg4) :=
  (dat1 (F := Ideal) V c).arrAt_eq_of_cover 2 (prod1 (V c main_call0_v34) (V c main_arg4))
    (fun t _ => flushed1_eq V c t) cover1

end Cert.KernelIdeal.RegionMatmul

end
-- ==== Proof.KernelValue.lean ====
/-
  The idealized kernel's result as one function of its arguments, on the extended reals. The result buffer holds the
  last host stretch applied to the second region's array; that array is the product of the positive part of the
  first layer's output with the second weights; the first layer is applied to the first region's array, the product
  of the features with the first weights; sources, targets and the per-node factor are prepared before the first
  region, and no stretch and no region writes an argument. Composed, the result is the network with its layers
  scaled at the nodes.
-/
import proofs.«167192_j2946347565080_2_alg».proof.Proof.KernelHost
import proofs.«167192_j2946347565080_2_alg».proof.Proof.RegionMatmul

set_option maxRecDepth 16384

noncomputable section

namespace Cert.KernelIdeal.KValue

open Cert.KernelIdeal Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument at the first region's entry is the argument as launched. -/
theorem entry_arg0 : Gen.W1 m ρ c (Proc.devRef .tc main_arg0) = m ((c : Thread nD τ).loc main_arg0) := KHost.W1_arg0 m ρ c
theorem entry_arg2 : Gen.W1 m ρ c (Proc.devRef .tc main_arg2) = m ((c : Thread nD τ).loc main_arg2) := KHost.W1_arg2 m ρ c
theorem entry_arg3 : Gen.W1 m ρ c (Proc.devRef .tc main_arg3) = m ((c : Thread nD τ).loc main_arg3) := KHost.W1_arg3 m ρ c
theorem entry_arg4 : Gen.W1 m ρ c (Proc.devRef .tc main_arg4) = m ((c : Thread nD τ).loc main_arg4) := KHost.W1_arg4 m ρ c
theorem entry_arg5 : Gen.W1 m ρ c (Proc.devRef .tc main_arg5) = m ((c : Thread nD τ).loc main_arg5) := KHost.W1_arg5 m ρ c

set_option maxHeartbeats 400000 in
/-- The first region's array: the features times the first weights. -/
theorem first_product : Gen.W2 m ρ c (Proc.devRef .tc main_call0_v15)
    = Cert.Forms.dot1 (F := Ideal) (m ((c : Thread nD τ).loc main_arg0)) (m ((c : Thread nD τ).loc main_arg2)) := by
  refine (Gen.W2_arr m ρ c 2).trans ?_
  refine (RegionMatmul.region0_array (Gen.V1 m ρ) c).trans ?_
  show Host.dotGeneral (F := Ideal) (φ₁ := .f32) (φ₂ := .f32) (DotDims.plain 100000 512 16) none
      (Gen.W1 m ρ c (Proc.devRef .tc main_arg0)) (Gen.W1 m ρ c (Proc.devRef .tc main_arg2)) = _
  rw [entry_arg0, entry_arg2]
  rfl

set_option maxHeartbeats 400000 in
/-- The first layer's output, at the second region's entry. -/
theorem first_layer : Gen.W3 m ρ c (Proc.devRef .tc main_call0_v34)
    = Cert.Forms.layerNodes16 (F := Ideal) (Cert.Forms.dot1 (F := Ideal) (m ((c : Thread nD τ).loc main_arg0)) (m ((c : Thread nD τ).loc main_arg2)))
        (Cert.Forms.factor (Cert.Forms.dsts (m ((c : Thread nD τ).loc main_arg1)))) (Cert.Forms.srcs (m ((c : Thread nD τ).loc main_arg1)))
        (Cert.Forms.dsts (m ((c : Thread nD τ).loc main_arg1))) (m ((c : Thread nD τ).loc main_arg3)) := by
  rw [KHost.W3_layer, first_product, KHost.W2_v14, KHost.W1_factor, KHost.W2_v3, KHost.W1_src, KHost.W2_v6, KHost.W1_dst,
    KHost.W2_arg3, entry_arg3]

set_option maxHeartbeats 400000 in
/-- The second region's array: the positive part of the first layer's output times the second weights. -/
theorem second_product : Gen.W4 m ρ c (Proc.devRef .tc main_call0_v35)
    = Cert.Forms.dot2 (F := Ideal) (Cert.Forms.relu (Gen.W3 m ρ c (Proc.devRef .tc main_call0_v34))) (m ((c : Thread nD τ).loc main_arg4)) := by
  refine (Gen.W4_arr m ρ c 2).trans ?_
  refine (RegionMatmul.region1_array (Gen.V3 m ρ) c).trans ?_
  show Host.dotGeneral (F := Ideal) (φ₁ := .f32) (φ₂ := .f32) (DotDims.plain 100000 16 7) none
      (maximumf (Gen.W3 m ρ c (Proc.devRef .tc main_call0_v34)) (fun _ => FloatOps.ofBits .f32 0x00000000#32))
      (Gen.W3 m ρ c (Proc.devRef .tc main_arg4)) = _
  rw [KHost.W3_arg4, KHost.W2_arg4, entry_arg4]
  rfl

set_option maxHeartbeats 400000 in
/-- The result: the network with its layers scaled at the nodes, of the arguments as launched. -/
theorem result_eq : Gen.W5 m ρ c (Proc.devRef .tc main_v0)
    = Cert.Forms.netNodes (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [KHost.W5_result, second_product, first_layer,
    KHost.W4_v14, KHost.W3_v14, KHost.W2_v14, KHost.W1_factor,
    KHost.W4_v3, KHost.W3_v3, KHost.W2_v3, KHost.W1_src,
    KHost.W4_v6, KHost.W3_v6, KHost.W2_v6, KHost.W1_dst,
    KHost.W4_arg5, KHost.W3_arg5, KHost.W2_arg5, entry_arg5]
  rfl

end Cert.KernelIdeal.KValue

end
-- ==== Proof.RefRun.lean ====
/-
  The reference program's run, read in the shared vocabulary of arrays.

  The reference is a straight line of 131 array operations, so what a buffer holds at the end of a run is the fold of the
  operations' results over the launch contents. The fold is read in eight consecutive stretches: the edges' sources
  and targets; the product with the first weights; the per-node factor; the first layer scaled at the edges; the
  positive part and the product with the second weights; the factor again; the second layer; the logarithm of the
  softmax. For each stretch, what it leaves in the buffers a later stretch reads is a function of what it found in the
  buffers it reads, and a buffer it does not write is left as found. Chained, the result buffer holds the network with
  its layers scaled at the edges, applied to the six arguments, and no operation writes an argument.
-/
import proofs.«167192_j2946347565080_2_alg».proof.Proof.RefRunPatched
import proofs.«167192_j2946347565080_2_alg».proof.Proof.Forms
import Idealize.ShloMosaic.Lib.StableHlo.Run

set_option maxRecDepth 16384

noncomputable section

namespace Cert.ReferenceIdeal.RefRun

open Cert.ReferenceIdeal Cert.ReferenceIdeal.Gen Cert.ReferenceIdeal.RunP Idealize.ShloMosaic Idealize.ShloMosaic.TcCoe Idealize.SL.Sem
  Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents moved to a buffer's own type and back are unchanged. -/
theorem ofBuf_toBuf {T : BufTy} (x : TRef sig T) (v : T.Contents (Elt F)) : x.ofBuf (x.toBuf v) = v := by
  simp only [TRef.ofBuf, TRef.toBuf, cast_cast, cast_eq]

/-- Closes `after p V b = V b` for a literal line `p` none of whose operations writes `b`: each operation writes one
    buffer, a reference other than `b`'s. -/
macro "not_written" p:ident : tactic => `(tactic| (
  refine after_of_forall_not_mem _ _ (List.forall_iff_forall_mem.mp ?_)
  simp only [$p:ident, List.Forall, nullary_writes, unary_writes, binary_writes, ternary_writes, quaternary_writes,
    reshape_writes, binaryIndexed_writes, Finset.mem_singleton]
  repeat' apply And.intro
  all_goals exact devRef_ne_of_ne (by decide)))

/-- The edges' ends: each row of the edge list followed by one self loop per node. -/
def pA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The sources: the edge list's first row, then the self loops. -/
theorem A_v3 (V : Valuation τ sig (Elt F)) :
    after pA V (Proc.devRef .tc main_v3) = Cert.Forms.srcs (V (Proc.devRef .tc main_arg1)) := by
  simp only [pA]; after_results_simp; rfl

/-- The targets: the edge list's second row, then the self loops. -/
theorem A_v6 (V : Valuation τ sig (Elt F)) :
    after pA V (Proc.devRef .tc main_v6) = Cert.Forms.dsts (V (Proc.devRef .tc main_arg1)) := by
  simp only [pA]; after_results_simp; rfl

theorem A_fr_arg0 (V : Valuation τ sig (Elt F)) :
    after pA V (Proc.devRef .tc main_arg0) = V (Proc.devRef .tc main_arg0) := by
  not_written pA

theorem A_fr_arg2 (V : Valuation τ sig (Elt F)) :
    after pA V (Proc.devRef .tc main_arg2) = V (Proc.devRef .tc main_arg2) := by
  not_written pA

theorem A_fr_arg3 (V : Valuation τ sig (Elt F)) :
    after pA V (Proc.devRef .tc main_arg3) = V (Proc.devRef .tc main_arg3) := by
  not_written pA

theorem A_fr_arg4 (V : Valuation τ sig (Elt F)) :
    after pA V (Proc.devRef .tc main_arg4) = V (Proc.devRef .tc main_arg4) := by
  not_written pA

theorem A_fr_arg5 (V : Valuation τ sig (Elt F)) :
    after pA V (Proc.devRef .tc main_arg5) = V (Proc.devRef .tc main_arg5) := by
  not_written pA

/-- The product with the first weights. -/
def pB : List (HloOp τ sig (Elt F)) :=
  [ binary main_arg0 main_arg2 main_v7 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- The features times the first weights. -/
theorem B_v7 (V : Valuation τ sig (Elt F)) :
    after pB V (Proc.devRef .tc main_v7) = Cert.Forms.dot1 (V (Proc.devRef .tc main_arg0)) (V (Proc.devRef .tc main_arg2)) := by
  simp only [pB]; after_results_simp; rfl

theorem B_fr_v3 (V : Valuation τ sig (Elt F)) :
    after pB V (Proc.devRef .tc main_v3) = V (Proc.devRef .tc main_v3) := by
  not_written pB

theorem B_fr_v6 (V : Valuation τ sig (Elt F)) :
    after pB V (Proc.devRef .tc main_v6) = V (Proc.devRef .tc main_v6) := by
  not_written pB

theorem B_fr_arg3 (V : Valuation τ sig (Elt F)) :
    after pB V (Proc.devRef .tc main_arg3) = V (Proc.devRef .tc main_arg3) := by
  not_written pB

theorem B_fr_arg4 (V : Valuation τ sig (Elt F)) :
    after pB V (Proc.devRef .tc main_arg4) = V (Proc.devRef .tc main_arg4) := by
  not_written pB

theorem B_fr_arg5 (V : Valuation τ sig (Elt F)) :
    after pB V (Proc.devRef .tc main_arg5) = V (Proc.devRef .tc main_arg5) := by
  not_written pB

/-- The per-node factor: the degrees, their reciprocal square roots where positive, zero elsewhere. -/
def pC : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- The factor of the targets. -/
theorem C_v15 (V : Valuation τ sig (Elt F)) :
    after pC V (Proc.devRef .tc main_v15) = Cert.Forms.factor (V (Proc.devRef .tc main_v6)) := by
  simp only [pC]; after_results_simp; simp only [ofBuf_toBuf]; rfl

theorem C_fr_v3 (V : Valuation τ sig (Elt F)) :
    after pC V (Proc.devRef .tc main_v3) = V (Proc.devRef .tc main_v3) := by
  not_written pC

theorem C_fr_v6 (V : Valuation τ sig (Elt F)) :
    after pC V (Proc.devRef .tc main_v6) = V (Proc.devRef .tc main_v6) := by
  not_written pC

theorem C_fr_v7 (V : Valuation τ sig (Elt F)) :
    after pC V (Proc.devRef .tc main_v7) = V (Proc.devRef .tc main_v7) := by
  not_written pC

theorem C_fr_arg3 (V : Valuation τ sig (Elt F)) :
    after pC V (Proc.devRef .tc main_arg3) = V (Proc.devRef .tc main_arg3) := by
  not_written pC

theorem C_fr_arg4 (V : Valuation τ sig (Elt F)) :
    after pC V (Proc.devRef .tc main_arg4) = V (Proc.devRef .tc main_arg4) := by
  not_written pC

theorem C_fr_arg5 (V : Valuation τ sig (Elt F)) :
    after pC V (Proc.devRef .tc main_arg5) = V (Proc.devRef .tc main_arg5) := by
  not_written pC

/-- The first layer, scaled at the edges: the two ends' factors gathered and multiplied, the rows gathered and scaled, summed by target, plus the bias. -/
def pD : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v7 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- The first layer, of the product, the factor, the sources, the targets and the first bias. -/
theorem D_v46 (V : Valuation τ sig (Elt F)) :
    after pD V (Proc.devRef .tc main_v46) = Cert.Forms.layerEdges16 (V (Proc.devRef .tc main_v7)) (V (Proc.devRef .tc main_v15)) (V (Proc.devRef .tc main_v3)) (V (Proc.devRef .tc main_v6)) (V (Proc.devRef .tc main_arg3)) := by
  simp only [pD]; after_results_simp; rfl

theorem D_fr_v3 (V : Valuation τ sig (Elt F)) :
    after pD V (Proc.devRef .tc main_v3) = V (Proc.devRef .tc main_v3) := by
  not_written pD

theorem D_fr_v6 (V : Valuation τ sig (Elt F)) :
    after pD V (Proc.devRef .tc main_v6) = V (Proc.devRef .tc main_v6) := by
  not_written pD

theorem D_fr_arg4 (V : Valuation τ sig (Elt F)) :
    after pD V (Proc.devRef .tc main_arg4) = V (Proc.devRef .tc main_arg4) := by
  not_written pD

theorem D_fr_arg5 (V : Valuation τ sig (Elt F)) :
    after pD V (Proc.devRef .tc main_arg5) = V (Proc.devRef .tc main_arg5) := by
  not_written pD

/-- The positive part and the product with the second weights. -/
def pE : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)) ]

/-- The positive part of the first layer, times the second weights. -/
theorem E_v48 (V : Valuation τ sig (Elt F)) :
    after pE V (Proc.devRef .tc main_v48) = Cert.Forms.dot2 (Cert.Forms.relu (V (Proc.devRef .tc main_v46))) (V (Proc.devRef .tc main_arg4)) := by
  simp only [pE]; after_results_simp; simp only [ofBuf_toBuf]; rfl

theorem E_fr_v3 (V : Valuation τ sig (Elt F)) :
    after pE V (Proc.devRef .tc main_v3) = V (Proc.devRef .tc main_v3) := by
  not_written pE

theorem E_fr_v6 (V : Valuation τ sig (Elt F)) :
    after pE V (Proc.devRef .tc main_v6) = V (Proc.devRef .tc main_v6) := by
  not_written pE

theorem E_fr_arg5 (V : Valuation τ sig (Elt F)) :
    after pE V (Proc.devRef .tc main_arg5) = V (Proc.devRef .tc main_arg5) := by
  not_written pE

/-- The per-node factor, computed again. -/
def pF : List (HloOp τ sig (Elt F)) :=
  [ nullary main_cst_9 (constant S_ .f32 0x3F800000#32),
    unary main_cst_9 main_v49 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v49 main_v52 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select ]

/-- The factor of the targets, again. -/
theorem F_v56 (V : Valuation τ sig (Elt F)) :
    after pF V (Proc.devRef .tc main_v56) = Cert.Forms.factor (V (Proc.devRef .tc main_v6)) := by
  simp only [pF]; after_results_simp; simp only [ofBuf_toBuf]; rfl

theorem F_fr_v3 (V : Valuation τ sig (Elt F)) :
    after pF V (Proc.devRef .tc main_v3) = V (Proc.devRef .tc main_v3) := by
  not_written pF

theorem F_fr_v6 (V : Valuation τ sig (Elt F)) :
    after pF V (Proc.devRef .tc main_v6) = V (Proc.devRef .tc main_v6) := by
  not_written pF

theorem F_fr_v48 (V : Valuation τ sig (Elt F)) :
    after pF V (Proc.devRef .tc main_v48) = V (Proc.devRef .tc main_v48) := by
  not_written pF

theorem F_fr_arg5 (V : Valuation τ sig (Elt F)) :
    after pF V (Proc.devRef .tc main_arg5) = V (Proc.devRef .tc main_arg5) := by
  not_written pF

/-- The second layer, scaled at the edges. -/
def pG : List (HloOp τ sig (Elt F)) :=
  [ nullary main_c_13 (constantI S_ 32 0#32),
    unary main_c_13 main_v57 (broadcastInDim S3300000 ![] bcast_S_S3300000 : (⟨S_, .i32⟩ : BufTy).Contents (Elt F) → (⟨S3300000, .i32⟩ : BufTy).Contents (Elt F)),
    binary main_v3 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v59 (broadcastInDim S3300000 ![] bcast_S_S3300000 : (⟨S_, .i32⟩ : BufTy).Contents (Elt F) → (⟨S3300000, .i32⟩ : BufTy).Contents (Elt F)),
    binary main_v3 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v3 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v64 (broadcastInDim S3300000 ![] bcast_S_S3300000 : (⟨S_, .i32⟩ : BufTy).Contents (Elt F) → (⟨S3300000, .i32⟩ : BufTy).Contents (Elt F)),
    binary main_v6 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v66 (broadcastInDim S3300000 ![] bcast_S_S3300000 : (⟨S_, .i32⟩ : BufTy).Contents (Elt F) → (⟨S3300000, .i32⟩ : BufTy).Contents (Elt F)),
    binary main_v6 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v6 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v56 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v63 main_v70 main_v71 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v72 (broadcastInDim S3300000 ![] bcast_S_S3300000 : (⟨S_, .i32⟩ : BufTy).Contents (Elt F) → (⟨S3300000, .i32⟩ : BufTy).Contents (Elt F)),
    binary main_v3 main_v72 main_v73 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v74 (broadcastInDim S3300000 ![] bcast_S_S3300000 : (⟨S_, .i32⟩ : BufTy).Contents (Elt F) → (⟨S3300000, .i32⟩ : BufTy).Contents (Elt F)),
    binary main_v3 main_v74 main_v75 (addi : (⟨S3300000, .i32⟩ : BufTy).Contents (Elt F) → (⟨S3300000, .i32⟩ : BufTy).Contents (Elt F) → (⟨S3300000, .i32⟩ : BufTy).Contents (Elt F)),
    ternary main_v73 main_v75 main_v3 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v76 main_v77 (broadcastInDim S3300000x1 ![0] bcast_S3300000_S3300000x1_0 : (⟨S3300000, .i32⟩ : BufTy).Contents (Elt F) → (⟨S3300000x1, .i32⟩ : BufTy).Contents (Elt F)),
    binary main_v48 main_v77 main_v78 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v71 main_v79 (broadcastInDim S3300000x1 ![0] bcast_S3300000_S3300000x1_0 : (⟨S3300000, .f32⟩ : BufTy).Contents (Elt F) → (⟨S3300000x1, .f32⟩ : BufTy).Contents (Elt F)),
    unary main_v79 main_v80 (broadcastInDim S3300000x7 ![0, 1] bcast_S3300000x1_S3300000x7_0_1 : (⟨S3300000x1, .f32⟩ : BufTy).Contents (Elt F) → (⟨S3300000x7, .f32⟩ : BufTy).Contents (Elt F)),
    binary main_v78 main_v80 main_v81 (mulf : (⟨S3300000x7, .f32⟩ : BufTy).Contents (Elt F) → (⟨S3300000x7, .f32⟩ : BufTy).Contents (Elt F) → (⟨S3300000x7, .f32⟩ : BufTy).Contents (Elt F)),
    nullary main_cst_19 (constant S_ .f32 0x00000000#32),
    unary main_cst_19 main_v82 (broadcastInDim S100000x7 ![] bcast_S_S100000x7 : (⟨S_, .f32⟩ : BufTy).Contents (Elt F) → (⟨S100000x7, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg5 main_v85 (broadcastInDim S1x7 ![1] bcast_S7_S1x7_1 : (⟨S7, .f32⟩ : BufTy).Contents (Elt F) → (⟨S1x7, .f32⟩ : BufTy).Contents (Elt F)),
    unary main_v85 main_v86 (broadcastInDim S100000x7 ![0, 1] bcast_S1x7_S100000x7_0_1 : (⟨S1x7, .f32⟩ : BufTy).Contents (Elt F) → (⟨S100000x7, .f32⟩ : BufTy).Contents (Elt F)),
    binary main_v84 main_v86 main_v87 (addf : (⟨S100000x7, .f32⟩ : BufTy).Contents (Elt F) → (⟨S100000x7, .f32⟩ : BufTy).Contents (Elt F) → (⟨S100000x7, .f32⟩ : BufTy).Contents (Elt F)) ]

/-- The second layer, of the second product, the factor, the sources, the targets and the second bias. -/
theorem G_v87 (V : Valuation τ sig (Elt F)) :
    after pG V (Proc.devRef .tc main_v87) = Cert.Forms.layerEdges7 (V (Proc.devRef .tc main_v48)) (V (Proc.devRef .tc main_v56)) (V (Proc.devRef .tc main_v3)) (V (Proc.devRef .tc main_v6)) (V (Proc.devRef .tc main_arg5)) := by
  simp only [pG]; after_results_simp; rfl

/-- The logarithm of the softmax along the classes. -/
def pH : List (HloOp τ sig (Elt F)) :=
  [ TRef.nullary (TRef.of (T := ⟨S_, .f32⟩) main_call3_cst) (constant S_ .f32 0xFF800000#32),
    TRef.binary (TRef.of (T := ⟨S100000x7, .f32⟩) main_v87) (TRef.of (T := ⟨S_, .f32⟩) main_call3_cst) (TRef.of (T := ⟨S100000, .f32⟩) main_call3_v0) (fun x v => Host.reduce FloatOps.maximumf x v reducesTo_S100000x7_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x7, .f32⟩) main_call3_v4) (broadcastInDim S100000x7 ![0, 1] bcast_S100000x1_S100000x7_0_1),
    TRef.binary (TRef.of (T := ⟨S100000x7, .f32⟩) main_v87) (TRef.of (T := ⟨S100000x7, .f32⟩) main_call3_v4) (TRef.of (T := ⟨S100000x7, .f32⟩) main_call3_v5) subf,
    TRef.unary (TRef.of (T := ⟨S100000x7, .f32⟩) main_call3_v5) (TRef.of (T := ⟨S100000x7, .f32⟩) main_call3_v6) Host.exp,
    TRef.nullary (TRef.of (T := ⟨S_, .f32⟩) main_call3_cst_1) (constant S_ .f32 0x00000000#32),
    TRef.binary (TRef.of (T := ⟨S100000x7, .f32⟩) main_call3_v6) (TRef.of (T := ⟨S_, .f32⟩) main_call3_cst_1) (TRef.of (T := ⟨S100000, .f32⟩) main_call3_v7) (fun x v => Host.reduceAdd x v reducesTo_S100000x7_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x7, .f32⟩) main_call3_v10) (broadcastInDim S100000x7 ![0, 1] bcast_S100000x1_S100000x7_0_1),
    TRef.binary (TRef.of (T := ⟨S100000x7, .f32⟩) main_call3_v5) (TRef.of (T := ⟨S100000x7, .f32⟩) main_call3_v10) (TRef.of (T := ⟨S100000x7, .f32⟩) main_v88) subf ]

/-- The logarithm of the softmax of the second layer. -/
theorem H_v88 (V : Valuation τ sig (Elt F)) :
    after pH V (Proc.devRef .tc main_v88) = Cert.Forms.logSoftmax (V (Proc.devRef .tc main_v87)) := by
  simp only [pH]; after_results_simp; simp only [ofBuf_toBuf]; rfl

/-- The reference's line is the eight stretches, in order. -/
theorem ops_split : (ops : List (HloOp τ sig (Elt F))) = pA ++ (pB ++ (pC ++ (pD ++ (pE ++ (pF ++ (pG ++ pH)))))) := rfl

/-- The fold of the whole line at the result's buffer: the network with its layers scaled at the edges, of the six
    arguments as found. Read stretch by stretch from the last to the first. -/
theorem after_ops_v88 (V : Valuation τ sig (Elt F)) :
    after ops V (Proc.devRef .tc main_v88)
      = Cert.Forms.netEdges (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split]
  simp only [after_append]
  rw [H_v88, G_v87]
  rw [F_fr_v48, F_v56, F_fr_v3, F_fr_v6, F_fr_arg5]
  rw [E_v48, E_fr_v3, E_fr_v6, E_fr_arg5]
  rw [D_v46, D_fr_v3, D_fr_v6, D_fr_arg4, D_fr_arg5]
  rw [C_v15, C_fr_v7, C_fr_v3, C_fr_v6, C_fr_arg3, C_fr_arg4, C_fr_arg5]
  rw [B_v7, B_fr_v3, B_fr_v6, B_fr_arg3, B_fr_arg4, B_fr_arg5]
  rw [A_v3, A_v6, A_fr_arg0, A_fr_arg2, A_fr_arg3, A_fr_arg4, A_fr_arg5]
  rfl

/-! No operation of the line writes an argument. -/
theorem after_ops_arg0 (V : Valuation τ sig (Elt F)) :
    after ops V (Proc.devRef .tc main_arg0) = V (Proc.devRef .tc main_arg0) := by
  not_written ops

theorem after_ops_arg1 (V : Valuation τ sig (Elt F)) :
    after ops V (Proc.devRef .tc main_arg1) = V (Proc.devRef .tc main_arg1) := by
  not_written ops

theorem after_ops_arg2 (V : Valuation τ sig (Elt F)) :
    after ops V (Proc.devRef .tc main_arg2) = V (Proc.devRef .tc main_arg2) := by
  not_written ops

theorem after_ops_arg3 (V : Valuation τ sig (Elt F)) :
    after ops V (Proc.devRef .tc main_arg3) = V (Proc.devRef .tc main_arg3) := by
  not_written ops

theorem after_ops_arg4 (V : Valuation τ sig (Elt F)) :
    after ops V (Proc.devRef .tc main_arg4) = V (Proc.devRef .tc main_arg4) := by
  not_written ops

theorem after_ops_arg5 (V : Valuation τ sig (Elt F)) :
    after ops V (Proc.devRef .tc main_arg5) = V (Proc.devRef .tc main_arg5) := by
  not_written ops

/-- On every device, for any float values, from any memory with zero counters: every weakly fair execution of the
    reference terminates with the result at the network scaled at the edges, of the arguments as launched, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88)
          = Cert.Forms.netEdges (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (after_ops_v88 (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c))⟩)
    (run_seq scopedRefs_eq scopedSems_eq defs main (fun _ => ops) main_eq (fun _ => ops_sub) m ρ)

end Cert.ReferenceIdeal.RefRun

end
-- ==== Proof.LayerLaw.lean ====
/-
  The two arrangements of a layer agree on the extended reals. Scaling the rows by the per-node factor before they
  are gathered, and the sums by it afterwards, gives at node n and column q
      factor(n) · Σ over the edges e that target n of ( h[source e, q] · factor(source e) ),
  while scaling each message gives
      Σ over the edges e that target n of h[source e, q] · ( factor(source e) · factor(target e) ).
  An edge counts as targeting n when its target index, read as a signed integer, is n; for such an edge the index
  wrapped from the end and clamped into the node range is n again, so the second factor is factor(n). The factor is
  the reciprocal square root of a degree where that is positive and zero elsewhere, so it is non-negative and never
  ⊤ whatever the degree; such a factor moves across a finite sum of extended reals, infinite summands included.
  Hence the two networks agree for all inputs.
-/
import Idealize.ShloMosaic.PureOps.Ideal
import Idealize.ShloMosaic.PureOps.Ideal.Laws
import Idealize.ShloMosaic.Lib.Pipeline.Value
import Idealize.ShloMosaic.Lib.ValueIdx
import proofs.«167192_j2946347565080_2_alg».proof.Proof.Forms
import proofs.«167192_j2946347565080_2_alg».proof.Proof.LibAggregate

noncomputable section

namespace Cert.LayerLaw

open Idealize.ShloMosaic Idealize.ShloMosaic.ValueIdx Cert.Forms

/-- An index vector as one column, at row e, is the vector at e. -/
theorem col_apply (v : IVec Se 32) (e : Fin 3300000) : col v (ix2 e (0 : Fin 1)) = v (ix1 e) := by
  unfold col
  exact broadcastInDim_apply _ _ v (ix2 e (0 : Fin 1)) (ix1 e) (fun a => match a with
    | ⟨0, _⟩ => by show e.val = if (3300000 : Nat) = 1 then 0 else e.val; rw [if_neg (by decide)])

/-- The wrap at an edge: the index plus 100000 where it is negative, the index elsewhere. -/
theorem wrap_apply (v : IVec Se 32) (e : Fin 3300000) :
    wrap v (ix1 e) = Scalar.select (IntOp.cmpi .slt (v (ix1 e)) 0#32) (IntOp.addi (v (ix1 e)) 100000#32) (v (ix1 e)) := rfl

/-- The per-node factor spread over 16 columns, at (n, q), is the factor at n. -/
theorem spread16_apply {F : FTy → Type} [FloatOps F] (d : FVec F Sn .f32) (n : Fin 100000) (q : Fin 16) :
    spread16 d (ix2 n q) = d (ix1 n) := by
  unfold spread16
  refine (broadcastInDim_apply _ _ _ (ix2 n q) (ix2 n (0 : Fin 1)) (fun a => match a with
    | ⟨0, _⟩ => by show n.val = if (100000 : Nat) = 1 then 0 else n.val; rw [if_neg (by decide)]
    | ⟨1, _⟩ => by show 0 = if (1 : Nat) = 1 then 0 else q.val; rw [if_pos rfl])).trans ?_
  exact broadcastInDim_apply _ _ d (ix2 n (0 : Fin 1)) (ix1 n) (fun a => match a with
    | ⟨0, _⟩ => by show n.val = if (100000 : Nat) = 1 then 0 else n.val; rw [if_neg (by decide)])

/-- The per-edge weight spread over 16 columns, at (e, q), is the weight of e. -/
theorem spreadE16_apply {F : FTy → Type} [FloatOps F] (w : FVec F Se .f32) (e : Fin 3300000) (q : Fin 16) :
    spreadE16 w (ix2 e q) = w (ix1 e) := by
  unfold spreadE16
  refine (broadcastInDim_apply _ _ _ (ix2 e q) (ix2 e (0 : Fin 1)) (fun a => match a with
    | ⟨0, _⟩ => by show e.val = if (3300000 : Nat) = 1 then 0 else e.val; rw [if_neg (by decide)]
    | ⟨1, _⟩ => by show 0 = if (1 : Nat) = 1 then 0 else q.val; rw [if_pos rfl])).trans ?_
  exact broadcastInDim_apply _ _ w (ix2 e (0 : Fin 1)) (ix1 e) (fun a => match a with
    | ⟨0, _⟩ => by show e.val = if (3300000 : Nat) = 1 then 0 else e.val; rw [if_neg (by decide)])

/-- A layer scaled at the nodes is the layer scaled at the edges, for a factor that is non-negative and not ⊤ at
    every node: at (n, q) both are the sum over the edges e that target n of h[source e, q] times the factor at the
    source times the factor at n, plus the bias. On an edge that targets n the wrapped and clamped target is n itself,
    and the factor at n moves across the sum. No entry of h need be finite. -/
theorem layer16_eq (h : FVec Ideal (Snc 16) .f32) (d : FVec Ideal Sn .f32) (hd0 : ∀ i, 0 ≤ d i) (hdt : ∀ i, d i ≠ ⊤)
    (src dst : IVec Se 32) (b : FVec Ideal (Sv 16) .f32) :
    layerNodes16 h d src dst b = layerEdges16 h d src dst b := by
  funext i
  obtain ⟨n, q, rfl⟩ : ∃ (n : Fin 100000) (q : Fin 16), i = ix2 n q := ⟨i 0, i 1, eq_ix2 i⟩
  unfold layerNodes16 layerEdges16
  rw [addf_apply, addf_apply, mulf_apply, spread16_apply]
  refine congrArg (fun x => x + bias16 b (ix2 n q)) ?_
  have hN : 0 < 100000 := by decide
  refine Cert.Lib.Aggregate.scaled_segment_sum (N := 100000) (C := 16) (E := 3300000) (w := 32) hN sc16.wf ga16.wf
    (fun n => d (ix1 n)) (fun n => hd0 (ix1 n)) (fun n => hdt (ix1 n)) h (mulf h (spread16 d)) ?_
    (broadcastInDim (Snc 16) ![] (by decide) (constant (F := Ideal) S_ .f32 0x00000000#32)) ?_ (col (wrap src)) (col dst)
    (mulf (Host.gather ga16 h (col (wrap src)))
      (spreadE16 (mulf (Host.gather gaV d (col (wrap src))) (Host.gather gaV d (col (wrap dst)))))) n q ?_
  · intro n q
    rw [mulf_apply, spread16_apply]
  · intro i
    exact Ideal.ofBits_zero_f32
  · intro e he
    rw [mulf_apply, Cert.Bridge.RowGather.gather_rows_apply hN ga16.wf h (col (wrap src)) e q, spreadE16_apply,
      mulf_apply, Cert.Lib.Aggregate.gather_vec_apply hN gaV.wf d (col (wrap src)) e,
      Cert.Lib.Aggregate.gather_vec_apply hN gaV.wf d (col (wrap dst)) e]
    have hn : Cert.Bridge.RowGather.rowOf hN (col (wrap dst) (ix2 e (0 : Fin 1))) = n := by
      rw [col_apply] at he ⊢
      rw [wrap_apply]
      exact Cert.Lib.Aggregate.rowOf_wrap_of_toInt_eq hN (dst (ix1 e)) 100000#32 n he
    rw [hn]
/-- The per-node factor spread over 7 columns, at (n, q), is the factor at n. -/
theorem spread7_apply {F : FTy → Type} [FloatOps F] (d : FVec F Sn .f32) (n : Fin 100000) (q : Fin 7) :
    spread7 d (ix2 n q) = d (ix1 n) := by
  unfold spread7
  refine (broadcastInDim_apply _ _ _ (ix2 n q) (ix2 n (0 : Fin 1)) (fun a => match a with
    | ⟨0, _⟩ => by show n.val = if (100000 : Nat) = 1 then 0 else n.val; rw [if_neg (by decide)]
    | ⟨1, _⟩ => by show 0 = if (1 : Nat) = 1 then 0 else q.val; rw [if_pos rfl])).trans ?_
  exact broadcastInDim_apply _ _ d (ix2 n (0 : Fin 1)) (ix1 n) (fun a => match a with
    | ⟨0, _⟩ => by show n.val = if (100000 : Nat) = 1 then 0 else n.val; rw [if_neg (by decide)])

/-- The per-edge weight spread over 7 columns, at (e, q), is the weight of e. -/
theorem spreadE7_apply {F : FTy → Type} [FloatOps F] (w : FVec F Se .f32) (e : Fin 3300000) (q : Fin 7) :
    spreadE7 w (ix2 e q) = w (ix1 e) := by
  unfold spreadE7
  refine (broadcastInDim_apply _ _ _ (ix2 e q) (ix2 e (0 : Fin 1)) (fun a => match a with
    | ⟨0, _⟩ => by show e.val = if (3300000 : Nat) = 1 then 0 else e.val; rw [if_neg (by decide)]
    | ⟨1, _⟩ => by show 0 = if (1 : Nat) = 1 then 0 else q.val; rw [if_pos rfl])).trans ?_
  exact broadcastInDim_apply _ _ w (ix2 e (0 : Fin 1)) (ix1 e) (fun a => match a with
    | ⟨0, _⟩ => by show e.val = if (3300000 : Nat) = 1 then 0 else e.val; rw [if_neg (by decide)])

/-- A layer scaled at the nodes is the layer scaled at the edges, for a factor that is non-negative and not ⊤ at
    every node: at (n, q) both are the sum over the edges e that target n of h[source e, q] times the factor at the
    source times the factor at n, plus the bias. On an edge that targets n the wrapped and clamped target is n itself,
    and the factor at n moves across the sum. No entry of h need be finite. -/
theorem layer7_eq (h : FVec Ideal (Snc 7) .f32) (d : FVec Ideal Sn .f32) (hd0 : ∀ i, 0 ≤ d i) (hdt : ∀ i, d i ≠ ⊤)
    (src dst : IVec Se 32) (b : FVec Ideal (Sv 7) .f32) :
    layerNodes7 h d src dst b = layerEdges7 h d src dst b := by
  funext i
  obtain ⟨n, q, rfl⟩ : ∃ (n : Fin 100000) (q : Fin 7), i = ix2 n q := ⟨i 0, i 1, eq_ix2 i⟩
  unfold layerNodes7 layerEdges7
  rw [addf_apply, addf_apply, mulf_apply, spread7_apply]
  refine congrArg (fun x => x + bias7 b (ix2 n q)) ?_
  have hN : 0 < 100000 := by decide
  refine Cert.Lib.Aggregate.scaled_segment_sum (N := 100000) (C := 7) (E := 3300000) (w := 32) hN sc7.wf ga7.wf
    (fun n => d (ix1 n)) (fun n => hd0 (ix1 n)) (fun n => hdt (ix1 n)) h (mulf h (spread7 d)) ?_
    (broadcastInDim (Snc 7) ![] (by decide) (constant (F := Ideal) S_ .f32 0x00000000#32)) ?_ (col (wrap src)) (col dst)
    (mulf (Host.gather ga7 h (col (wrap src)))
      (spreadE7 (mulf (Host.gather gaV d (col (wrap src))) (Host.gather gaV d (col (wrap dst)))))) n q ?_
  · intro n q
    rw [mulf_apply, spread7_apply]
  · intro i
    exact Ideal.ofBits_zero_f32
  · intro e he
    rw [mulf_apply, Cert.Bridge.RowGather.gather_rows_apply hN ga7.wf h (col (wrap src)) e q, spreadE7_apply,
      mulf_apply, Cert.Lib.Aggregate.gather_vec_apply hN gaV.wf d (col (wrap src)) e,
      Cert.Lib.Aggregate.gather_vec_apply hN gaV.wf d (col (wrap dst)) e]
    have hn : Cert.Bridge.RowGather.rowOf hN (col (wrap dst) (ix2 e (0 : Fin 1))) = n := by
      rw [col_apply] at he ⊢
      rw [wrap_apply]
      exact Cert.Lib.Aggregate.rowOf_wrap_of_toInt_eq hN (dst (ix1 e)) 100000#32 n he
    rw [hn]

/-- The selection that defines the factor, over any array of degrees: non-negative at every node. -/
theorem select_nonneg (D : FVec Ideal Sn .f32) (i : Sn.Idx) :
    0 ≤ select (cmpf (F := Ideal) .ogt D (broadcastInDim Sn ![] (by decide) (constant S_ .f32 0x00000000#32)))
      (Host.rsqrt D) (broadcastInDim Sn ![] (by decide) (id (constant S_ .f32 0x00000000#32))) i :=
  Cert.Lib.Aggregate.select_rsqrt_nonneg (D i) (FloatOps.ofBits (F := Ideal) .f32 0x00000000#32) Ideal.ofBits_zero_f32

/-- The selection that defines the factor, over any array of degrees: never ⊤. -/
theorem select_ne_top (D : FVec Ideal Sn .f32) (i : Sn.Idx) :
    select (cmpf (F := Ideal) .ogt D (broadcastInDim Sn ![] (by decide) (constant S_ .f32 0x00000000#32)))
      (Host.rsqrt D) (broadcastInDim Sn ![] (by decide) (id (constant S_ .f32 0x00000000#32))) i ≠ ⊤ :=
  Cert.Lib.Aggregate.select_rsqrt_ne_top (D i) (FloatOps.ofBits (F := Ideal) .f32 0x00000000#32) Ideal.ofBits_zero_f32

/-- The factor is non-negative. -/
theorem factor_nonneg (dst : IVec Se 32) (i : Sn.Idx) : 0 ≤ factor (F := Ideal) dst i := by
  unfold factor
  exact select_nonneg (degree (F := Ideal) dst) i

/-- The factor is never ⊤. -/
theorem factor_ne_top (dst : IVec Se 32) (i : Sn.Idx) : factor (F := Ideal) dst i ≠ ⊤ := by
  unfold factor
  exact select_ne_top (degree (F := Ideal) dst) i

/-- The network with its layers scaled at the nodes is the network with its layers scaled at the edges. -/
theorem net_eq (x : FVec Ideal ⟨2, ![100000, 512]⟩ .f32) (ei : IVec Sei 32) (w1 : FVec Ideal ⟨2, ![512, 16]⟩ .f32)
    (b1 : FVec Ideal (Sv 16) .f32) (w2 : FVec Ideal ⟨2, ![16, 7]⟩ .f32) (b2 : FVec Ideal (Sv 7) .f32) :
    netNodes x ei w1 b1 w2 b2 = netEdges x ei w1 b1 w2 b2 := by
  unfold netNodes netEdges
  rw [layer16_eq (dot1 x w1) (factor (dsts ei)) (factor_nonneg (dsts ei)) (factor_ne_top (dsts ei)) (srcs ei) (dsts ei) b1,
    layer7_eq _ (factor (dsts ei)) (factor_nonneg (dsts ei)) (factor_ne_top (dsts ei)) (srcs ei) (dsts ei) b2]

end Cert.LayerLaw

end
-- ==== Proof.lean ====
/-
  A two-layer graph convolution on 100000 nodes — features times weights, a normalised sum over incoming edges, the
  positive part, a second product and normalised sum, the logarithm of the softmax over 7 classes — computed by a
  program whose two products are kernels tiled over the rows and whose normalisation scales at the nodes, against a
  reference that does everything in host operations and scales each edge's message.

  On the extended reals the two agree for every input. The products agree because a tiled product into a zero
  accumulator, block by block over the rows, is the whole product, and the change of float format in front of it is
  the identity. The normalised sums agree because, at node n, an edge is summed exactly when its target index read
  signed is n; for such an edge the reference's factor at the wrapped and clamped target is the factor at n, and the
  factor — the reciprocal square root of a degree where that is positive, zero elsewhere — is non-negative and never
  ⊤, so it moves across the finite sum whatever the summands are. Nothing here uses the finiteness of the inputs.

  The kernel's run names its result as the fold of its three host stretches and two regions (Proof/KernelRun.lean);
  that fold is the network scaled at the nodes (Proof/KernelValue.lean over Proof/KernelHost.lean and
  Proof/RegionMatmul.lean); the reference's run ends at the network scaled at the edges (Proof/RefRun.lean); the
  two networks are equal (Proof/LayerLaw.lean over the general lemmas of Proof/LibAggregate.lean). The idealization
  rewrote no operation, so it preserves the kernel trivially; the three frames are the generated frame runs and the
  reference's run with its result dropped.
-/
import proofs.«167192_j2946347565080_2_alg».proof.Defs
import proofs.«167192_j2946347565080_2_alg».proof.Proof.Gen.Kernel
import proofs.«167192_j2946347565080_2_alg».proof.Proof.Gen.Kernel.Skeleton
import proofs.«167192_j2946347565080_2_alg».proof.Proof.Gen.Kernel.Launch
import proofs.«167192_j2946347565080_2_alg».proof.Proof.Gen.Kernel.Points
import proofs.«167192_j2946347565080_2_alg».proof.Proof.Gen.Kernel.Frame
import proofs.«167192_j2946347565080_2_alg».proof.Proof.Gen.KernelIdeal
import proofs.«167192_j2946347565080_2_alg».proof.Proof.Gen.KernelIdeal.Skeleton
import proofs.«167192_j2946347565080_2_alg».proof.Proof.Gen.KernelIdeal.Launch
import proofs.«167192_j2946347565080_2_alg».proof.Proof.Gen.KernelIdeal.Points
import proofs.«167192_j2946347565080_2_alg».proof.Proof.Gen.KernelIdeal.Frame
import proofs.«167192_j2946347565080_2_alg».proof.Proof.Gen.ReferenceIdeal
import proofs.«167192_j2946347565080_2_alg».proof.Proof.Gen.Pre_finite_inputs
import proofs.«167192_j2946347565080_2_alg».proof.Proof.KernelRun
import proofs.«167192_j2946347565080_2_alg».proof.Proof.KernelValue
import proofs.«167192_j2946347565080_2_alg».proof.Proof.RefRun
import proofs.«167192_j2946347565080_2_alg».proof.Proof.LayerLaw
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Both programs end, from memories that agree on the arguments, at the network scaled at the nodes of those
    arguments: the kernel by its run and its value, the reference by its run and the equality of the two networks. -/
theorem algebraic : Cert.algebraic_KernelIdeal_ReferenceIdeal := by
  intro m ρ m' ρ' _ hagree
  refine ⟨fun c => Cert.Forms.netNodes (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result_eq m ρ c), (h c).2⟩)
      (Cert.KernelIdeal.KernelRun.run_named (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    exact (Cert.LayerLaw.net_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
